-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10001x8 : Shape := ⟨2, ![10001, 8]⟩
abbrev S50000x300 : Shape := ⟨2, ![50000, 300]⟩
abbrev S10000x10000 : Shape := ⟨2, ![10000, 10000]⟩
abbrev S300x256 : Shape := ⟨2, ![300, 256]⟩
abbrev S256 : Shape := ⟨1, ![256]⟩
abbrev S256x256 : Shape := ⟨2, ![256, 256]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S300x256 : S_.BroadcastsInDim S300x256 (![] : Fin 0 → Fin S300x256.rank)
  reducesTo_S300x256_S_d0_1 : S300x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : IVec S10001x8 32) (main_arg1 : FVec F S50000x300 .f32) (main_arg2 : FVec F S10000x10000 .f32) (main_arg3 : FVec F S300x256 .f32) (main_arg4 : FVec F S256 .f32) (main_arg5 : FVec F S256x256 .f32) (main_arg6 : FVec F S256 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S10000x10000 .f32 := Host.absf main_arg2
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S300x256 .f32 := Host.absf main_arg3
  let main_cst_2 : FVec F S_ .f32 := constant S_ .f32 0x7F800000#32
  let main_v10 : FVec F S300x256 .f32 := broadcastInDim S300x256 ![] bcast_S_S300x256 main_cst_2
  let main_v11 : IVec S300x256 1 := cmpf .olt main_v9 main_v10
  let main_c_3 : IVec S_ 1 := constantI S_ 1 1#1
  let main_v12 : IVec S_ 1 := (fun x v => Host.reduce IntOp.andi x v reducesTo_S300x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S10001x8 : Shape := ⟨2, ![10001, 8]⟩
abbrev S50000x300 : Shape := ⟨2, ![50000, 300]⟩
abbrev S10000x10000 : Shape := ⟨2, ![10000, 10000]⟩
abbrev S300x256 : Shape := ⟨2, ![300, 256]⟩
abbrev S256 : Shape := ⟨1, ![256]⟩
abbrev S256x256 : Shape := ⟨2, ![256, 256]⟩
abbrev S10000x8 : Shape := ⟨2, ![10000, 8]⟩
abbrev S_ : Shape := ⟨0, ![]⟩
abbrev S10000x8x1 : Shape := ⟨3, ![10000, 8, 1]⟩
abbrev S10000x8x300 : Shape := ⟨3, ![10000, 8, 300]⟩
abbrev S10000x300 : Shape := ⟨2, ![10000, 300]⟩
abbrev S10000x256 : Shape := ⟨2, ![10000, 256]⟩
abbrev S1x256 : Shape := ⟨2, ![1, 256]⟩
abbrev S200x10000 : Shape := ⟨2, ![200, 10000]⟩
abbrev S200x256 : Shape := ⟨2, ![200, 256]⟩
abbrev S200x1024 : Shape := ⟨2, ![200, 1024]⟩
abbrev S1024x256 : Shape := ⟨2, ![1024, 256]⟩
abbrev S200x784 : Shape := ⟨2, ![200, 784]⟩
abbrev S784x256 : Shape := ⟨2, ![784, 256]⟩

abbrev nBuf : Space → Nat
  | .hbm => 27
  | .vmem => 12
  | .smem => 0
  | _ => 0

abbrev bufTy : (tb : Table) → Fin (tcTables nBuf tb) → BufTy
  | .hbm, ⟨0, _⟩ => ⟨S10001x8, .i32⟩
  | .hbm, ⟨1, _⟩ => ⟨S50000x300, .f32⟩
  | .hbm, ⟨2, _⟩ => ⟨S10000x10000, .f32⟩
  | .hbm, ⟨3, _⟩ => ⟨S300x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S10000x8, .i32⟩
  | .hbm, ⟨8, _⟩ => ⟨S_, .i32⟩
  | .hbm, ⟨9, _⟩ => ⟨S10000x8, .i32⟩
  | .hbm, ⟨10, _⟩ => ⟨S10000x8, .i1⟩
  | .hbm, ⟨11, _⟩ => ⟨S_, .i32⟩
  | .hbm, ⟨12, _⟩ => ⟨S10000x8, .i32⟩
  | .hbm, ⟨13, _⟩ => ⟨S10000x8, .i32⟩
  | .hbm, ⟨14, _⟩ => ⟨S10000x8, .i32⟩
  | .hbm, ⟨15, _⟩ => ⟨S10000x8x1, .i32⟩
  | .hbm, ⟨16, _⟩ => ⟨S10000x8x300, .f32⟩
  | .hbm, ⟨17, _⟩ => ⟨S_, .f32⟩
  | .hbm, ⟨18, _⟩ => ⟨S10000x300, .f32⟩
  | .hbm, ⟨19, _⟩ => ⟨S10000x256, .f32⟩
  | .hbm, ⟨20, _⟩ => ⟨S10000x256, .bf16⟩
  | .hbm, ⟨21, _⟩ => ⟨S1x256, .f32⟩
  | .hbm, ⟨22, _⟩ => ⟨S10000x256, .f32⟩
  | .hbm, ⟨23, _⟩ => ⟨S10000x256, .f32⟩
  | .hbm, ⟨24, _⟩ => ⟨S10000x256, .bf16⟩
  | .hbm, ⟨25, _⟩ => ⟨S1x256, .f32⟩
  | .hbm, ⟨26, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S10000x256, .bf16⟩
  | .local _ .vmem, ⟨3, _⟩ => ⟨S1x256, .f32⟩
  | .local _ .vmem, ⟨4, _⟩ => ⟨S200x256, .f32⟩
  | .local _ .vmem, ⟨5, _⟩ => ⟨S200x256, .f32⟩
  | .local _ .vmem, ⟨6, _⟩ => ⟨S200x10000, .f32⟩
  | .local _ .vmem, ⟨7, _⟩ => ⟨S200x10000, .f32⟩
  | .local _ .vmem, ⟨8, _⟩ => ⟨S10000x256, .bf16⟩
  | .local _ .vmem, ⟨9, _⟩ => ⟨S1x256, .f32⟩
  | .local _ .vmem, ⟨10, _⟩ => ⟨S200x256, .f32⟩
  | .local _ .vmem, ⟨11, _⟩ => ⟨S200x256, .f32⟩
  | _, _ => ⟨S10001x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S10001x8_S10000x8_1_0 : S10001x8.Slices ![1, 0] S10000x8
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  reducesTo_S10000x8x300_S10000x300_d1 : S10000x8x300.ReducesTo [1] S10000x300
  h_S_ : 0 < S_.numel
  bitsLt_bf16_f32 : FTy.bits .bf16 < FTy.bits .f32
  shapeCasts_S256_S1x256 : S256.ShapeCasts S1x256
  inb_S200x10000_S200x1024_0_0 : ∀ a, (![0, 0] : Fin 2 → Nat) a + S200x1024.size a ≤ S200x10000.size a
  h_S200x1024 : 0 < S200x1024.numel
  inb_S10000x256_S1024x256_0_0 : ∀ a, (![0, 0] : Fin 2 → Nat) a + S1024x256.size a ≤ S10000x256.size a
  h_S1024x256 : 0 < S1024x256.numel
  shapeCasts_S1024x256_S1024x256 : S1024x256.ShapeCasts S1024x256
  inb_S200x10000_S200x1024_0_1024 : ∀ a, (![0, 1024] : Fin 2 → Nat) a + S200x1024.size a ≤ S200x10000.size a
  inb_S10000x256_S1024x256_1024_0 : ∀ a, (![1024, 0] : Fin 2 → Nat) a + S1024x256.size a ≤ S10000x256.size a
  inb_S200x10000_S200x1024_0_2048 : ∀ a, (![0, 2048] : Fin 2 → Nat) a + S200x1024.size a ≤ S200x10000.size a
  inb_S10000x256_S1024x256_2048_0 : ∀ a, (![2048, 0] : Fin 2 → Nat) a + S1024x256.size a ≤ S10000x256.size a
  inb_S200x10000_S200x1024_0_3072 : ∀ a, (![0, 3072] : Fin 2 → Nat) a + S200x1024.size a ≤ S200x10000.size a
  inb_S10000x256_S1024x256_3072_0 : ∀ a, (![3072, 0] : Fin 2 → Nat) a + S1024x256.size a ≤ S10000x256.size a
  inb_S200x10000_S200x1024_0_4096 : ∀ a, (![0, 4096] : Fin 2 → Nat) a + S200x1024.size a ≤ S200x10000.size a
  inb_S10000x256_S1024x256_4096_0 : ∀ a, (![4096, 0] : Fin 2 → Nat) a + S1024x256.size a ≤ S10000x256.size a
  inb_S200x10000_S200x1024_0_5120 : ∀ a, (![0, 5120] : Fin 2 → Nat) a + S200x1024.size a ≤ S200x10000.size a
  inb_S10000x256_S1024x256_5120_0 : ∀ a, (![5120, 0] : Fin 2 → Nat) a + S1024x256.size a ≤ S10000x256.size a
  inb_S200x10000_S200x1024_0_6144 : ∀ a, (![0, 6144] : Fin 2 → Nat) a + S200x1024.size a ≤ S200x10000.size a
  inb_S10000x256_S1024x256_6144_0 : ∀ a, (![6144, 0] : Fin 2 → Nat) a + S1024x256.size a ≤ S10000x256.size a
  inb_S200x10000_S200x1024_0_7168 : ∀ a, (![0, 7168] : Fin 2 → Nat) a + S200x1024.size a ≤ S200x10000.size a
  inb_S10000x256_S1024x256_7168_0 : ∀ a, (![7168, 0] : Fin 2 → Nat) a + S1024x256.size a ≤ S10000x256.size a
  inb_S200x10000_S200x1024_0_8192 : ∀ a, (![0, 8192] : Fin 2 → Nat) a + S200x1024.size a ≤ S200x10000.size a
  inb_S10000x256_S1024x256_8192_0 : ∀ a, (![8192, 0] : Fin 2 → Nat) a + S1024x256.size a ≤ S10000x256.size a
  inb_S200x10000_S200x784_0_9216 : ∀ a, (![0, 9216] : Fin 2 → Nat) a + S200x784.size a ≤ S200x10000.size a
  h_S200x784 : 0 < S200x784.numel
  inb_S10000x256_S784x256_9216_0 : ∀ a, (![9216, 0] : Fin 2 → Nat) a + S784x256.size a ≤ S10000x256.size a
  h_S784x256 : 0 < S784x256.numel
  shapeCasts_S784x256_S784x256 : S784x256.ShapeCasts S784x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  gather_S50000x300_S10000x8x1_S10000x8x300_2_0_n_n_0_2_1300_wf : GatherDims.WF S50000x300 S10000x8x1 S10000x8x300 [2] [0] [] [0] [] 2 ![1, 300]
  dot_S10000x300_S300x256_S10000x256_1_0_0_1_n_n_wf : DotDims.WF S10000x300 S300x256 S10000x256 [1] [0] [0] [1] [] []
  dot_S200x1024_S1024x256_S200x256_1_0_0_1_n_n_wf : DotDims.WF S200x1024 S1024x256 S200x256 [1] [0] [0] [1] [] []
  dot_S200x784_S784x256_S200x256_1_0_0_1_n_n_wf : DotDims.WF S200x784 S784x256 S200x256 [1] [0] [0] [1] [] []
  dot_S10000x256_S256x256_S10000x256_1_0_0_1_n_n_wf : DotDims.WF S10000x256 S256x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .f32 = 32 ∨ (Rect.block (s := S10000x256) S200x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S10000x256.size a
  hwx1_3 : ∀ i : grid1.Coords, EltTy.bits .f32 = 32 ∨ (Rect.block (s := S10000x256) S200x256.size (cc1_transform_3 i) (hinb1_3 i)).WholeWords (EltTy.packing .f32)

variable [Facts₀]

def gather_S50000x300_S10000x8x1_S10000x8x300_2_0_n_n_0_2_1300 : GatherDims S50000x300 S10000x8x1 S10000x8x300 where
  offsetDims := [2]
  collapsedSliceDims := [0]
  operandBatchingDims := []
  startIndicesBatchingDims := []
  startIndexMap := [0]
  indexVectorDim := 2
  sliceSizes := ![1, 300]
  wf := gather_S50000x300_S10000x8x1_S10000x8x300_2_0_n_n_0_2_1300_wf
def dot_S10000x300_S300x256_S10000x256_1_0_0_1_n_n : DotDims S10000x300 S300x256 S10000x256 where
  lhsContracting := [1]
  rhsContracting := [0]
  lhsNonContracting := [0]
  rhsNonContracting := [1]
  lhsBatch := []
  rhsBatch := []
  wf := dot_S10000x300_S300x256_S10000x256_1_0_0_1_n_n_wf
def dot_S200x1024_S1024x256_S200x256_1_0_0_1_n_n : DotDims S200x1024 S1024x256 S200x256 where
  lhsContracting := [1]
  rhsContracting := [0]
  lhsNonContracting := [0]
  rhsNonContracting := [1]
  lhsBatch := []
  rhsBatch := []
  wf := dot_S200x1024_S1024x256_S200x256_1_0_0_1_n_n_wf
def dot_S200x784_S784x256_S200x256_1_0_0_1_n_n : DotDims S200x784 S784x256 S200x256 where
  lhsContracting := [1]
  rhsContracting := [0]
  lhsNonContracting := [0]
  rhsNonContracting := [1]
  lhsBatch := []
  rhsBatch := []
  wf := dot_S200x784_S784x256_S200x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S200x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10001x8 : Shape := ⟨2, ![10001, 8]⟩
abbrev S50000x300 : Shape := ⟨2, ![50000, 300]⟩
abbrev S10000x10000 : Shape := ⟨2, ![10000, 10000]⟩
abbrev S300x256 : Shape := ⟨2, ![300, 256]⟩
abbrev S256 : Shape := ⟨1, ![256]⟩
abbrev S256x256 : Shape := ⟨2, ![256, 256]⟩
abbrev S10000x8 : Shape := ⟨2, ![10000, 8]⟩
abbrev S_ : Shape := ⟨0, ![]⟩
abbrev S10000x8x1 : Shape := ⟨3, ![10000, 8, 1]⟩
abbrev S10000x8x300 : Shape := ⟨3, ![10000, 8, 300]⟩
abbrev S10000x300 : Shape := ⟨2, ![10000, 300]⟩
abbrev S10000x256 : Shape := ⟨2, ![10000, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S10001x8, .i32⟩
  | .hbm, ⟨1, _⟩ => ⟨S50000x300, .f32⟩
  | .hbm, ⟨2, _⟩ => ⟨S10000x10000, .f32⟩
  | .hbm, ⟨3, _⟩ => ⟨S300x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S10000x8, .i32⟩
  | .hbm, ⟨8, _⟩ => ⟨S_, .i32⟩
  | .hbm, ⟨9, _⟩ => ⟨S10000x8, .i32⟩
  | .hbm, ⟨10, _⟩ => ⟨S10000x8, .i1⟩
  | .hbm, ⟨11, _⟩ => ⟨S_, .i32⟩
  | .hbm, ⟨12, _⟩ => ⟨S10000x8, .i32⟩
  | .hbm, ⟨13, _⟩ => ⟨S10000x8, .i32⟩
  | .hbm, ⟨14, _⟩ => ⟨S10000x8, .i32⟩
  | .hbm, ⟨15, _⟩ => ⟨S10000x8x1, .i32⟩
  | .hbm, ⟨16, _⟩ => ⟨S10000x8x300, .f32⟩
  | .hbm, ⟨17, _⟩ => ⟨S_, .f32⟩
  | .hbm, ⟨18, _⟩ => ⟨S10000x300, .f32⟩
  | .hbm, ⟨19, _⟩ => ⟨S10000x256, .f32⟩
  | .hbm, ⟨20, _⟩ => ⟨S10000x256, .f32⟩
  | .hbm, ⟨21, _⟩ => ⟨S1x256, .f32⟩
  | .hbm, ⟨22, _⟩ => ⟨S10000x256, .f32⟩
  | .hbm, ⟨23, _⟩ => ⟨S10000x256, .f32⟩
  | .hbm, ⟨24, _⟩ => ⟨S_, .f32⟩
  | .hbm, ⟨25, _⟩ => ⟨S10000x256, .f32⟩
  | .hbm, ⟨26, _⟩ => ⟨S10000x256, .i1⟩
  | .hbm, ⟨27, _⟩ => ⟨S_, .f32⟩
  | .hbm, ⟨28, _⟩ => ⟨S10000x256, .f32⟩
  | .hbm, ⟨29, _⟩ => ⟨S10000x256, .f32⟩
  | .hbm, ⟨30, _⟩ => ⟨S10000x256, .f32⟩
  | .hbm, ⟨31, _⟩ => ⟨S10000x256, .f32⟩
  | .hbm, ⟨32, _⟩ => ⟨S10000x256, .f32⟩
  | .hbm, ⟨33, _⟩ => ⟨S1x256, .f32⟩
  | .hbm, ⟨34, _⟩ => ⟨S10000x256, .f32⟩
  | .hbm, ⟨35, _⟩ => ⟨S10000x256, .f32⟩
  | .hbm, ⟨36, _⟩ => ⟨S_, .f32⟩
  | .hbm, ⟨37, _⟩ => ⟨S10000x256, .f32⟩
  | .hbm, ⟨38, _⟩ => ⟨S10000x256, .i1⟩
  | .hbm, ⟨39, _⟩ => ⟨S_, .f32⟩
  | .hbm, ⟨40, _⟩ => ⟨S10000x256, .f32⟩
  | .hbm, ⟨41, _⟩ => ⟨S10000x256, .f32⟩
  | .hbm, ⟨42, _⟩ => ⟨S10000x256, .f32⟩
  | _, _ => ⟨S10001x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_cst_0 : Ref sig .tc := ⟨.hbm, 39, rfl⟩
abbrev main_call1_v2 : Ref sig .tc := ⟨.hbm, 40, rfl⟩
abbrev main_call1_v3 : Ref sig .tc := ⟨.hbm, 41, rfl⟩
abbrev main_v20 : Ref sig .tc := ⟨.hbm, 42, rfl⟩

abbrev nD : Nat := 1
abbrev τ : Topo := Topo.v7x

variable {F : FTy → Type} [FloatOps F]

class Facts₀ : Prop where
  slices_S10001x8_S10000x8_1_0 : S10001x8.Slices ![1, 0] S10000x8
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  reducesTo_S10000x8x300_S10000x300_d1 : S10000x8x300.ReducesTo [1] S10000x300
  h_S_ : 0 < S_.numel
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  gather_S50000x300_S10000x8x1_S10000x8x300_2_0_n_n_0_2_1300_wf : GatherDims.WF S50000x300 S10000x8x1 S10000x8x300 [2] [0] [] [0] [] 2 ![1, 300]
  dot_S10000x300_S300x256_S10000x256_1_0_0_1_n_n_wf : DotDims.WF S10000x300 S300x256 S10000x256 [1] [0] [0] [1] [] []
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []

variable [Facts₀]

def gather_S50000x300_S10000x8x1_S10000x8x300_2_0_n_n_0_2_1300 : GatherDims S50000x300 S10000x8x1 S10000x8x300 where
  offsetDims := [2]
  collapsedSliceDims := [0]
  operandBatchingDims := []
  startIndicesBatchingDims := []
  startIndexMap := [0]
  indexVectorDim := 2
  sliceSizes := ![1, 300]
  wf := gather_S50000x300_S10000x8x1_S10000x8x300_2_0_n_n_0_2_1300_wf
def dot_S10000x300_S300x256_S10000x256_1_0_0_1_n_n : DotDims S10000x300 S300x256 S10000x256 where
  lhsContracting := [1]
  rhsContracting := [0]
  lhsNonContracting := [0]
  rhsNonContracting := [1]
  lhsBatch := []
  rhsBatch := []
  wf := dot_S10000x300_S300x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.Chunks.lean ====
/-
  The kernel walks the ten thousand columns of an adjacency block in ten slabs (nine of 1024 columns, one of 784),
  multiplies each slab with the matching rows of the feature matrix and adds the ten products up from zero. Here,
  over no program: a sum over `Fin 10000` is the sum of its ten slab sums added up in that order (addition of a
  commutative monoid is all it takes: no finiteness); a slab of columns, or of rows, read at an entry is the whole
  matrix read at the shifted entry; and one slab's product, at an entry, is the slab's share of the inner product.
-/
import proofs.«134504_j53970559041618_2_alg».proof.Proof.LibMatmulPlain
import Idealize.ShloMosaic.Lib.Pipeline.Value
import Idealize.ShloMosaic.Lib.ValueLayout

noncomputable section

open scoped BigOperators

namespace Cert.Gcn.Chunks

open Idealize.ShloMosaic Idealize.ShloMosaic.ValueIdx

section Sums
variable {M : Type*} [AddCommMonoid M]

/-- The sum over the first `o` indices plus the sum over the next `s` is the sum over the first `o + s`. -/
theorem sum_step {n : ℕ} (f : Fin n → M) (o s e : ℕ) (he : o + s = e) (h : e ≤ n) :
    (∑ k : Fin o, f ⟨k.val, by have := k.isLt; omega⟩) + ∑ k : Fin s, f ⟨o + k.val, by have := k.isLt; omega⟩
      = ∑ k : Fin e, f ⟨k.val, by have := k.isLt; omega⟩ := by
  subst he
  exact (Fin.sum_univ_add (fun k : Fin (o + s) => f ⟨k.val, by have := k.isLt; omega⟩)).symm

/-- The slab of `s` terms starting at `o`. -/
def chunk (f : Fin 10000 → M) (o s : ℕ) (h : o + s ≤ 10000) : M :=
  ∑ k : Fin s, f ⟨o + k.val, by have := k.isLt; omega⟩

/-- Ten slabs, added up from zero in order, are the whole sum. -/
theorem sum_chunks (f : Fin 10000 → M) :
    0 + chunk f 0 1024 (by norm_num) + chunk f 1024 1024 (by norm_num) + chunk f 2048 1024 (by norm_num)
      + chunk f 3072 1024 (by norm_num) + chunk f 4096 1024 (by norm_num) + chunk f 5120 1024 (by norm_num)
      + chunk f 6144 1024 (by norm_num) + chunk f 7168 1024 (by norm_num) + chunk f 8192 1024 (by norm_num)
      + chunk f 9216 784 (by norm_num) = ∑ k, f k := by
  have z : (0 : M) = ∑ k : Fin 0, f ⟨k.val, by have := k.isLt; omega⟩ := by simp
  unfold chunk
  rw [z, sum_step f 0 1024 1024 rfl (by norm_num), sum_step f 1024 1024 2048 rfl (by norm_num),
    sum_step f 2048 1024 3072 rfl (by norm_num), sum_step f 3072 1024 4096 rfl (by norm_num),
    sum_step f 4096 1024 5120 rfl (by norm_num), sum_step f 5120 1024 6144 rfl (by norm_num),
    sum_step f 6144 1024 7168 rfl (by norm_num), sum_step f 7168 1024 8192 rfl (by norm_num),
    sum_step f 8192 1024 9216 rfl (by norm_num), sum_step f 9216 784 10000 rfl (by norm_num)]

end Sums

/-- A slab of `s` columns starting at column `o` of a 200 × 10000 block, read at (p, k): the block at (p, o + k). -/
theorem ld_cols {s : ℕ} (x : Vec Ideal ⟨2, ![200, 10000]⟩ .f32) (o : ℕ) (hos : o + s ≤ 10000)
    (inb : ∀ a, (![0, o] : Fin 2 → ℕ) a + (⟨2, ![200, s]⟩ : Shape).size a ≤ (⟨2, ![200, 10000]⟩ : Shape).size a)
    (p : Fin 200) (k : Fin s) :
    View.ld (Val := Elt Ideal) x (Rect.unit (s := ⟨2, ![200, 10000]⟩) ![0, o] (⟨2, ![200, s]⟩ : Shape).size inb) (ix2 p k)
      = x (ix2 p (⟨o + k.val, by have := k.isLt; omega⟩ : Fin 10000)) := by
  show x ((Rect.unit (s := ⟨2, ![200, 10000]⟩) ![0, o] (⟨2, ![200, s]⟩ : Shape).size inb).idx (ix2 p k)) = _
  refine congrArg x ?_
  funext a; apply Fin.ext
  match a with
  | ⟨0, _⟩ => show 0 + 1 * p.val = p.val; omega
  | ⟨1, _⟩ => show o + 1 * k.val = o + k.val; omega

/-- A slab of `s` rows starting at row `o` of a 10000 × 256 matrix, read at (k, q): the matrix at (o + k, q). -/
theorem ld_rows {s : ℕ} (x : Vec Ideal ⟨2, ![10000, 256]⟩ .bf16) (o : ℕ) (hos : o + s ≤ 10000)
    (inb : ∀ a, (![o, 0] : Fin 2 → ℕ) a + (⟨2, ![s, 256]⟩ : Shape).size a ≤ (⟨2, ![10000, 256]⟩ : Shape).size a)
    (k : Fin s) (q : Fin 256) :
    View.ld (Val := Elt Ideal) x (Rect.unit (s := ⟨2, ![10000, 256]⟩) ![o, 0] (⟨2, ![s, 256]⟩ : Shape).size inb) (ix2 k q)
      = x (ix2 (⟨o + k.val, by have := k.isLt; omega⟩ : Fin 10000) q) := by
  show x ((Rect.unit (s := ⟨2, ![10000, 256]⟩) ![o, 0] (⟨2, ![s, 256]⟩ : Shape).size inb).idx (ix2 k q)) = _
  refine congrArg x ?_
  funext a; apply Fin.ext
  match a with
  | ⟨0, _⟩ => show o + 1 * k.val = o + k.val; omega
  | ⟨1, _⟩ => show 0 + 1 * q.val = q.val; omega

/-- One slab's product at entry (p, q): the slab's columns of the block (rounded to a narrower format, which at the
    extended reals changes nothing) against the slab's rows of the feature matrix, accumulated into zero, is the
    slab's share `∑ k < s, x0 (p, o + k) · x1 (o + k, q)` of the inner product. -/
theorem chunk_entry {s : ℕ} (x0 : Vec Ideal ⟨2, ![200, 10000]⟩ .f32) (x1 : Vec Ideal ⟨2, ![10000, 256]⟩ .bf16) (o : ℕ)
    (hos : o + s ≤ 10000)
    (inb0 : ∀ a, (![0, o] : Fin 2 → ℕ) a + (⟨2, ![200, s]⟩ : Shape).size a ≤ (⟨2, ![200, 10000]⟩ : Shape).size a)
    (inb1 : ∀ a, (![o, 0] : Fin 2 → ℕ) a + (⟨2, ![s, 256]⟩ : Shape).size a ≤ (⟨2, ![10000, 256]⟩ : Shape).size a)
    (hb : FTy.bits .bf16 < FTy.bits .f32) (hc : (⟨2, ![s, 256]⟩ : Shape).ShapeCasts ⟨2, ![s, 256]⟩)
    (D : DotDims ⟨2, ![200, s]⟩ ⟨2, ![s, 256]⟩ ⟨2, ![200, 256]⟩) (hD : D = DotDims.plain 200 s 256)
    (p : Fin 200) (q : Fin 256) :
    matmul D none
        (truncf .bf16 (View.ld (Val := Elt Ideal) x0 (Rect.unit (s := ⟨2, ![200, 10000]⟩) ![0, o] (⟨2, ![200, s]⟩ : Shape).size inb0)) hb)
        (shapeCast ⟨2, ![s, 256]⟩ (View.ld (Val := Elt Ideal) x1 (Rect.unit (s := ⟨2, ![10000, 256]⟩) ![o, 0] (⟨2, ![s, 256]⟩ : Shape).size inb1)) hc : FVec Ideal ⟨2, ![s, 256]⟩ .bf16)
        (constant (F := Ideal) ⟨2, ![200, 256]⟩ .f32 0x00000000#32) (ix2 p q)
      = chunk (fun k : Fin 10000 => (x0 (ix2 p k) : EReal) * (x1 (ix2 k q) : EReal)) o s hos := by
  subst hD
  have e : (shapeCast ⟨2, ![s, 256]⟩ (View.ld (Val := Elt Ideal) x1 (Rect.unit (s := ⟨2, ![10000, 256]⟩) ![o, 0] (⟨2, ![s, 256]⟩ : Shape).size inb1)) hc : FVec Ideal ⟨2, ![s, 256]⟩ .bf16)
      = View.ld (Val := Elt Ideal) x1 (Rect.unit (s := ⟨2, ![10000, 256]⟩) ![o, 0] (⟨2, ![s, 256]⟩ : Shape).size inb1) := shapeCast_self _ hc
  rw [e, LibMatmulPlain.matmul_plain_zero_apply]
  unfold chunk
  refine Finset.sum_congr rfl fun k _ => ?_
  rw [truncf_apply, ld_cols x0 o hos inb0 p k, ld_rows x1 o hos inb1 k q]

end Cert.Gcn.Chunks

end
-- ==== Proof.Spec.lean ====
/-
  What both programs compute, stated once over the extended reals and over no program.

  A node's feature row is the maximum, over the eight words of its name, of the words' embedding rows; a graph
  convolution layer sends a feature matrix `S` (one row per node) to `leaky (adj · S + b)`: entry (p, q) is the
  leaky rectifier of `∑ k, adj p k · S k q + b q`, the sum over ALL ten thousand nodes `k`. The network is two such
  layers around the plain products with the two weight matrices. `out` is that function of the seven arguments;
  `layerAt` is one entry of one layer.
-/
import Idealize.ShloMosaic.Lib.StackMember
import Idealize.ShloMosaic.Lib.ValueIdx
import Idealize.ShloMosaic.PureOps.Ideal.Laws

noncomputable section

open scoped BigOperators

namespace Cert.Gcn

open Idealize.ShloMosaic Idealize.ShloMosaic.ValueIdx

abbrev SNodes : Shape := ⟨2, ![10001, 8]⟩
abbrev SIdx : Shape := ⟨2, ![10000, 8]⟩
abbrev SIdx1 : Shape := ⟨3, ![10000, 8, 1]⟩
abbrev SEmb : Shape := ⟨2, ![50000, 300]⟩
abbrev SWords : Shape := ⟨3, ![10000, 8, 300]⟩
abbrev SFeat : Shape := ⟨2, ![10000, 300]⟩
abbrev SAdj : Shape := ⟨2, ![10000, 10000]⟩
abbrev SHid : Shape := ⟨2, ![10000, 256]⟩
abbrev SW1 : Shape := ⟨2, ![300, 256]⟩
abbrev SW2 : Shape := ⟨2, ![256, 256]⟩
abbrev SBias : Shape := ⟨1, ![256]⟩
abbrev S0 : Shape := ⟨0, ![]⟩

/-- The leaky rectifier with slope `f32(0.01)`, in the primitives both programs print it with: `x` where `x ≥ 0`,
    the slope times `x` elsewhere. -/
def leaky (x : Ideal .f32) : Ideal .f32 :=
  Scalar.select (FloatOps.cmpf .oge x (Ideal.ofBits .f32 0x00000000#32)) x
    (FloatOps.mulf (Ideal.ofBits .f32 0x3C23D70A#32) x)

/-- One entry of one graph-convolution layer: the leaky rectifier of row `p` of the adjacency matrix against column `q`
    of the feature matrix, summed over every node, plus the bias at `q`. -/
def layerAt (adj : SAdj.Idx → EReal) (S : SHid.Idx → EReal) (b : Fin 256 → EReal) (p : Fin 10000) (q : Fin 256) : EReal :=
  leaky ((∑ k : Fin 10000, adj (ix2 p k) * S (ix2 k q)) + b q)

/-- The layer as an array. -/
def layer (adj : SAdj.Idx → EReal) (S : SHid.Idx → EReal) (b : Fin 256 → EReal) : FVec Ideal SHid .f32 :=
  fun i => layerAt adj S b (i 0) (i 1)

theorem layer_ix2 (adj : SAdj.Idx → EReal) (S : SHid.Idx → EReal) (b : Fin 256 → EReal) (p : Fin 10000) (q : Fin 256) :
    layer adj S b (ix2 p q) = layerAt adj S b p q := rfl

theorem hslice : SNodes.Slices ![1, 0] SIdx := by decide
theorem hb0 : S0.BroadcastsInDim SIdx (![] : Fin 0 → Fin SIdx.rank) := by decide
theorem hb1 : SIdx.BroadcastsInDim SIdx1 (![0, 1] : Fin 2 → Fin SIdx1.rank) := by decide
theorem hred : SWords.ReducesTo [1] SFeat := by decide
theorem h0 : 0 < S0.numel := by decide
theorem hgather : GatherDims.WF SEmb SIdx1 SWords [2] [0] [] [0] [] 2 ![1, 300] := by decide

/-- The gather's dimension numbers: one embedding row per (node, word). -/
def gatherDims : GatherDims SEmb SIdx1 SWords where
  offsetDims := [2]
  collapsedSliceDims := [0]
  operandBatchingDims := []
  startIndicesBatchingDims := []
  startIndexMap := [0]
  indexVectorDim := 2
  sliceSizes := ![1, 300]
  wf := hgather

/-- The word indices of the ten thousand named nodes (the table without its first row), a negative index counted
    from the end of the vocabulary. -/
def wordIdx (nodes : IVec SNodes 32) : IVec SIdx1 32 :=
  broadcastInDim SIdx1 ![0, 1] hb1
    (select (cmpi .slt (extractStridedSlice SIdx ![1, 0] nodes hslice) (broadcastInDim SIdx ![] hb0 (constantI S0 32 0#32)))
      (addi (extractStridedSlice SIdx ![1, 0] nodes hslice) (broadcastInDim SIdx ![] hb0 (constantI S0 32 50000#32)))
      (extractStridedSlice SIdx ![1, 0] nodes hslice))

/-- The nodes' features: per node the entrywise maximum of its eight words' embedding rows. -/
def feat (nodes : IVec SNodes 32) (emb : FVec Ideal SEmb .f32) : FVec Ideal SFeat .f32 :=
  Host.reduce FloatOps.maximumf (Host.gather gatherDims emb (wordIdx nodes)) (constant (F := Ideal) S0 .f32 0xFF800000#32) hred h0

/-- The whole network: two layers, each fed the plain product of the previous features with a weight matrix. -/
def out (nodes : IVec SNodes 32) (emb : FVec Ideal SEmb .f32) (adj : FVec Ideal SAdj .f32) (W1 : FVec Ideal SW1 .f32)
    (b1 : FVec Ideal SBias .f32) (W2 : FVec Ideal SW2 .f32) (b2 : FVec Ideal SBias .f32) : FVec Ideal SHid .f32 :=
  layer adj
    (Host.dotGeneral (DotDims.plain 10000 256 256) none
      (layer adj (Host.dotGeneral (DotDims.plain 10000 300 256) none (feat nodes emb) W1) (fun q => b1 (ix1 q))) W2)
    (fun q => b2 (ix1 q))

end Cert.Gcn

end
-- ==== Proof.Payload.lean ====
/-
  What each launch's body computes, entry by entry. The body loads its 200 × 10000 adjacency block in ten slabs of
  columns and the resident feature matrix in the ten matching slabs of rows, rounds each adjacency slab to the
  narrower format (nothing, at the extended reals), multiplies, adds the ten products up from a zero splat, adds the
  bias row and applies the leaky rectifier. At entry (p, q) that is the rectifier of the whole inner product of row
  `p` of the block with column `q` of the feature matrix, plus the bias at `q`: the ten slab sums are the one sum.
-/
import proofs.«134504_j53970559041618_2_alg».proof.Proof.Gen.KernelIdeal.Frame
import proofs.«134504_j53970559041618_2_alg».proof.Proof.Chunks
import proofs.«134504_j53970559041618_2_alg».proof.Proof.Spec

set_option maxRecDepth 16384

noncomputable section

open scoped BigOperators

namespace Cert.KernelIdeal.Net

open Cert.KernelIdeal Cert.KernelIdeal.Gen Idealize.ShloMosaic Idealize.ShloMosaic.ValueIdx

/-- The two matrix products of the body have the plain dimension numbers. -/
theorem dot1024_plain : dot_S200x1024_S1024x256_S200x256_1_0_0_1_n_n = DotDims.plain 200 1024 256 := rfl
theorem dot784_plain : dot_S200x784_S784x256_S200x256_1_0_0_1_n_n = DotDims.plain 200 784 256 := rfl

theorem hz2 : (![0, 0] : Fin 2 → Nat) = fun _ => 0 := funext fun a => by fin_cases a <;> rfl

/-- What launch 0's body stores at entry (p, q) of its output block, as a function of its three input blocks: the
    rectifier of the ten slab products added up from zero — the whole inner product of row `p` of the adjacency block
    with column `q` of the feature matrix — plus the bias row at `q`. -/
theorem body0_entry (x0 : Vec Ideal S200x10000 .f32) (x1 : Vec Ideal S10000x256 .bf16) (x2 : Vec Ideal S1x256 .f32)
    (j : S200x256.Idx) (p : Fin 200) (q : Fin 256) (hj : j = ix2 p q) :
    k0_pay1 (k0_pay3 (k0_pay2 (View.ld x0 r0_0) (View.ld x1 r0_1) (View.ld x0 r0_2) (View.ld x1 r0_3) (View.ld x0 r0_4) (View.ld x1 r0_5) (View.ld x0 r0_6) (View.ld x1 r0_7) (View.ld x0 r0_8) (View.ld x1 r0_9)) (View.ld x0 r0_10) (View.ld x1 r0_11) (View.ld x0 r0_12) (View.ld x1 r0_13) (View.ld x0 r0_14) (View.ld x1 r0_15) (View.ld x0 r0_16) (View.ld x1 r0_17) (View.ld x0 r0_18) (View.ld x1 r0_19) (View.ld x2 r0_20)) (Scalar.ofBits .f32 0x00000000#32) j
      = Cert.Gcn.leaky ((∑ k : Fin 10000, (x0 (ix2 p k) : EReal) * (x1 (ix2 k q) : EReal)) + x2 (ix2 (0 : Fin 1) q)) := by
  subst hj
  show Cert.Gcn.leaky (((((((((((Ideal.ofBits .f32 0x00000000#32
        + matmul dot_S200x1024_S1024x256_S200x256_1_0_0_1_n_n none (truncf .bf16 (View.ld x0 r0_0) bitsLt_bf16_f32) (shapeCast S1024x256 (View.ld x1 r0_1) shapeCasts_S1024x256_S1024x256) (constant S200x256 .f32 0x00000000#32) (ix2 p q))
        + matmul dot_S200x1024_S1024x256_S200x256_1_0_0_1_n_n none (truncf .bf16 (View.ld x0 r0_2) bitsLt_bf16_f32) (shapeCast S1024x256 (View.ld x1 r0_3) shapeCasts_S1024x256_S1024x256) (constant S200x256 .f32 0x00000000#32) (ix2 p q))
        + matmul dot_S200x1024_S1024x256_S200x256_1_0_0_1_n_n none (truncf .bf16 (View.ld x0 r0_4) bitsLt_bf16_f32) (shapeCast S1024x256 (View.ld x1 r0_5) shapeCasts_S1024x256_S1024x256) (constant S200x256 .f32 0x00000000#32) (ix2 p q))
        + matmul dot_S200x1024_S1024x256_S200x256_1_0_0_1_n_n none (truncf .bf16 (View.ld x0 r0_6) bitsLt_bf16_f32) (shapeCast S1024x256 (View.ld x1 r0_7) shapeCasts_S1024x256_S1024x256) (constant S200x256 .f32 0x00000000#32) (ix2 p q))
        + matmul dot_S200x1024_S1024x256_S200x256_1_0_0_1_n_n none (truncf .bf16 (View.ld x0 r0_8) bitsLt_bf16_f32) (shapeCast S1024x256 (View.ld x1 r0_9) shapeCasts_S1024x256_S1024x256) (constant S200x256 .f32 0x00000000#32) (ix2 p q))
        + matmul dot_S200x1024_S1024x256_S200x256_1_0_0_1_n_n none (truncf .bf16 (View.ld x0 r0_10) bitsLt_bf16_f32) (shapeCast S1024x256 (View.ld x1 r0_11) shapeCasts_S1024x256_S1024x256) (constant S200x256 .f32 0x00000000#32) (ix2 p q))
        + matmul dot_S200x1024_S1024x256_S200x256_1_0_0_1_n_n none (truncf .bf16 (View.ld x0 r0_12) bitsLt_bf16_f32) (shapeCast S1024x256 (View.ld x1 r0_13) shapeCasts_S1024x256_S1024x256) (constant S200x256 .f32 0x00000000#32) (ix2 p q))
        + matmul dot_S200x1024_S1024x256_S200x256_1_0_0_1_n_n none (truncf .bf16 (View.ld x0 r0_14) bitsLt_bf16_f32) (shapeCast S1024x256 (View.ld x1 r0_15) shapeCasts_S1024x256_S1024x256) (constant S200x256 .f32 0x00000000#32) (ix2 p q))
        + matmul dot_S200x1024_S1024x256_S200x256_1_0_0_1_n_n none (truncf .bf16 (View.ld x0 r0_16) bitsLt_bf16_f32) (shapeCast S1024x256 (View.ld x1 r0_17) shapeCasts_S1024x256_S1024x256) (constant S200x256 .f32 0x00000000#32) (ix2 p q))
        + matmul dot_S200x784_S784x256_S200x256_1_0_0_1_n_n none (truncf .bf16 (View.ld x0 r0_18) bitsLt_bf16_f32) (shapeCast S784x256 (View.ld x1 r0_19) shapeCasts_S784x256_S784x256) (constant S200x256 .f32 0x00000000#32) (ix2 p q))
        + broadcastTo S200x256 (shapeCast S1x256 (View.ld x2 r0_20) shapeCasts_S1x256_S1x256) broadcasts_S1x256_S200x256 (ix2 p q)) = _
  refine congrArg Cert.Gcn.leaky (congrArg₂ (· + ·) (Eq.trans ?_ (Cert.Gcn.Chunks.sum_chunks (fun k : Fin 10000 => (x0 (ix2 p k) : EReal) * (x1 (ix2 k q) : EReal)))) ?_)
  · exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32
      (Cert.Gcn.Chunks.chunk_entry (s := 1024) x0 x1 0 (by norm_num) inb_S200x10000_S200x1024_0_0 inb_S10000x256_S1024x256_0_0 bitsLt_bf16_f32 shapeCasts_S1024x256_S1024x256 _ dot1024_plain p q))
      (Cert.Gcn.Chunks.chunk_entry (s := 1024) x0 x1 1024 (by norm_num) inb_S200x10000_S200x1024_0_1024 inb_S10000x256_S1024x256_1024_0 bitsLt_bf16_f32 shapeCasts_S1024x256_S1024x256 _ dot1024_plain p q))
      (Cert.Gcn.Chunks.chunk_entry (s := 1024) x0 x1 2048 (by norm_num) inb_S200x10000_S200x1024_0_2048 inb_S10000x256_S1024x256_2048_0 bitsLt_bf16_f32 shapeCasts_S1024x256_S1024x256 _ dot1024_plain p q))
      (Cert.Gcn.Chunks.chunk_entry (s := 1024) x0 x1 3072 (by norm_num) inb_S200x10000_S200x1024_0_3072 inb_S10000x256_S1024x256_3072_0 bitsLt_bf16_f32 shapeCasts_S1024x256_S1024x256 _ dot1024_plain p q))
      (Cert.Gcn.Chunks.chunk_entry (s := 1024) x0 x1 4096 (by norm_num) inb_S200x10000_S200x1024_0_4096 inb_S10000x256_S1024x256_4096_0 bitsLt_bf16_f32 shapeCasts_S1024x256_S1024x256 _ dot1024_plain p q))
      (Cert.Gcn.Chunks.chunk_entry (s := 1024) x0 x1 5120 (by norm_num) inb_S200x10000_S200x1024_0_5120 inb_S10000x256_S1024x256_5120_0 bitsLt_bf16_f32 shapeCasts_S1024x256_S1024x256 _ dot1024_plain p q))
      (Cert.Gcn.Chunks.chunk_entry (s := 1024) x0 x1 6144 (by norm_num) inb_S200x10000_S200x1024_0_6144 inb_S10000x256_S1024x256_6144_0 bitsLt_bf16_f32 shapeCasts_S1024x256_S1024x256 _ dot1024_plain p q))
      (Cert.Gcn.Chunks.chunk_entry (s := 1024) x0 x1 7168 (by norm_num) inb_S200x10000_S200x1024_0_7168 inb_S10000x256_S1024x256_7168_0 bitsLt_bf16_f32 shapeCasts_S1024x256_S1024x256 _ dot1024_plain p q))
      (Cert.Gcn.Chunks.chunk_entry (s := 1024) x0 x1 8192 (by norm_num) inb_S200x10000_S200x1024_0_8192 inb_S10000x256_S1024x256_8192_0 bitsLt_bf16_f32 shapeCasts_S1024x256_S1024x256 _ dot1024_plain p q))
      (Cert.Gcn.Chunks.chunk_entry (s := 784) x0 x1 9216 (by norm_num) inb_S200x10000_S200x784_0_9216 inb_S10000x256_S784x256_9216_0 bitsLt_bf16_f32 shapeCasts_S784x256_S784x256 _ dot784_plain p q))
  · refine (broadcastTo_1b_ab_apply (a := 200) (b := 256) _ broadcasts_S1x256_S200x256 p q).trans ?_
    refine (congrFun (shapeCast_self (s := S1x256) _ shapeCasts_S1x256_S1x256) _).trans ?_
    exact congrFun (View.ld_unit_zero (S := S1x256) hz2 inb_S1x256_S1x256_0_0 x2) _

/-- What launch 1's body stores at entry (p, q) of its output block, as a function of its three input blocks: the
    rectifier of the ten slab products added up from zero — the whole inner product of row `p` of the adjacency block
    with column `q` of the feature matrix — plus the bias row at `q`. -/
theorem body1_entry (x0 : Vec Ideal S200x10000 .f32) (x1 : Vec Ideal S10000x256 .bf16) (x2 : Vec Ideal S1x256 .f32)
    (j : S200x256.Idx) (p : Fin 200) (q : Fin 256) (hj : j = ix2 p q) :
    k1_pay1 (k1_pay3 (k1_pay2 (View.ld x0 r1_0) (View.ld x1 r1_1) (View.ld x0 r1_2) (View.ld x1 r1_3) (View.ld x0 r1_4) (View.ld x1 r1_5) (View.ld x0 r1_6) (View.ld x1 r1_7) (View.ld x0 r1_8) (View.ld x1 r1_9)) (View.ld x0 r1_10) (View.ld x1 r1_11) (View.ld x0 r1_12) (View.ld x1 r1_13) (View.ld x0 r1_14) (View.ld x1 r1_15) (View.ld x0 r1_16) (View.ld x1 r1_17) (View.ld x0 r1_18) (View.ld x1 r1_19) (View.ld x2 r1_20)) (Scalar.ofBits .f32 0x00000000#32) j
      = Cert.Gcn.leaky ((∑ k : Fin 10000, (x0 (ix2 p k) : EReal) * (x1 (ix2 k q) : EReal)) + x2 (ix2 (0 : Fin 1) q)) := by
  subst hj
  show Cert.Gcn.leaky (((((((((((Ideal.ofBits .f32 0x00000000#32
        + matmul dot_S200x1024_S1024x256_S200x256_1_0_0_1_n_n none (truncf .bf16 (View.ld x0 r1_0) bitsLt_bf16_f32) (shapeCast S1024x256 (View.ld x1 r1_1) shapeCasts_S1024x256_S1024x256) (constant S200x256 .f32 0x00000000#32) (ix2 p q))
        + matmul dot_S200x1024_S1024x256_S200x256_1_0_0_1_n_n none (truncf .bf16 (View.ld x0 r1_2) bitsLt_bf16_f32) (shapeCast S1024x256 (View.ld x1 r1_3) shapeCasts_S1024x256_S1024x256) (constant S200x256 .f32 0x00000000#32) (ix2 p q))
        + matmul dot_S200x1024_S1024x256_S200x256_1_0_0_1_n_n none (truncf .bf16 (View.ld x0 r1_4) bitsLt_bf16_f32) (shapeCast S1024x256 (View.ld x1 r1_5) shapeCasts_S1024x256_S1024x256) (constant S200x256 .f32 0x00000000#32) (ix2 p q))
        + matmul dot_S200x1024_S1024x256_S200x256_1_0_0_1_n_n none (truncf .bf16 (View.ld x0 r1_6) bitsLt_bf16_f32) (shapeCast S1024x256 (View.ld x1 r1_7) shapeCasts_S1024x256_S1024x256) (constant S200x256 .f32 0x00000000#32) (ix2 p q))
        + matmul dot_S200x1024_S1024x256_S200x256_1_0_0_1_n_n none (truncf .bf16 (View.ld x0 r1_8) bitsLt_bf16_f32) (shapeCast S1024x256 (View.ld x1 r1_9) shapeCasts_S1024x256_S1024x256) (constant S200x256 .f32 0x00000000#32) (ix2 p q))
        + matmul dot_S200x1024_S1024x256_S200x256_1_0_0_1_n_n none (truncf .bf16 (View.ld x0 r1_10) bitsLt_bf16_f32) (shapeCast S1024x256 (View.ld x1 r1_11) shapeCasts_S1024x256_S1024x256) (constant S200x256 .f32 0x00000000#32) (ix2 p q))
        + matmul dot_S200x1024_S1024x256_S200x256_1_0_0_1_n_n none (truncf .bf16 (View.ld x0 r1_12) bitsLt_bf16_f32) (shapeCast S1024x256 (View.ld x1 r1_13) shapeCasts_S1024x256_S1024x256) (constant S200x256 .f32 0x00000000#32) (ix2 p q))
        + matmul dot_S200x1024_S1024x256_S200x256_1_0_0_1_n_n none (truncf .bf16 (View.ld x0 r1_14) bitsLt_bf16_f32) (shapeCast S1024x256 (View.ld x1 r1_15) shapeCasts_S1024x256_S1024x256) (constant S200x256 .f32 0x00000000#32) (ix2 p q))
        + matmul dot_S200x1024_S1024x256_S200x256_1_0_0_1_n_n none (truncf .bf16 (View.ld x0 r1_16) bitsLt_bf16_f32) (shapeCast S1024x256 (View.ld x1 r1_17) shapeCasts_S1024x256_S1024x256) (constant S200x256 .f32 0x00000000#32) (ix2 p q))
        + matmul dot_S200x784_S784x256_S200x256_1_0_0_1_n_n none (truncf .bf16 (View.ld x0 r1_18) bitsLt_bf16_f32) (shapeCast S784x256 (View.ld x1 r1_19) shapeCasts_S784x256_S784x256) (constant S200x256 .f32 0x00000000#32) (ix2 p q))
        + broadcastTo S200x256 (shapeCast S1x256 (View.ld x2 r1_20) shapeCasts_S1x256_S1x256) broadcasts_S1x256_S200x256 (ix2 p q)) = _
  refine congrArg Cert.Gcn.leaky (congrArg₂ (· + ·) (Eq.trans ?_ (Cert.Gcn.Chunks.sum_chunks (fun k : Fin 10000 => (x0 (ix2 p k) : EReal) * (x1 (ix2 k q) : EReal)))) ?_)
  · exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32
      (Cert.Gcn.Chunks.chunk_entry (s := 1024) x0 x1 0 (by norm_num) inb_S200x10000_S200x1024_0_0 inb_S10000x256_S1024x256_0_0 bitsLt_bf16_f32 shapeCasts_S1024x256_S1024x256 _ dot1024_plain p q))
      (Cert.Gcn.Chunks.chunk_entry (s := 1024) x0 x1 1024 (by norm_num) inb_S200x10000_S200x1024_0_1024 inb_S10000x256_S1024x256_1024_0 bitsLt_bf16_f32 shapeCasts_S1024x256_S1024x256 _ dot1024_plain p q))
      (Cert.Gcn.Chunks.chunk_entry (s := 1024) x0 x1 2048 (by norm_num) inb_S200x10000_S200x1024_0_2048 inb_S10000x256_S1024x256_2048_0 bitsLt_bf16_f32 shapeCasts_S1024x256_S1024x256 _ dot1024_plain p q))
      (Cert.Gcn.Chunks.chunk_entry (s := 1024) x0 x1 3072 (by norm_num) inb_S200x10000_S200x1024_0_3072 inb_S10000x256_S1024x256_3072_0 bitsLt_bf16_f32 shapeCasts_S1024x256_S1024x256 _ dot1024_plain p q))
      (Cert.Gcn.Chunks.chunk_entry (s := 1024) x0 x1 4096 (by norm_num) inb_S200x10000_S200x1024_0_4096 inb_S10000x256_S1024x256_4096_0 bitsLt_bf16_f32 shapeCasts_S1024x256_S1024x256 _ dot1024_plain p q))
      (Cert.Gcn.Chunks.chunk_entry (s := 1024) x0 x1 5120 (by norm_num) inb_S200x10000_S200x1024_0_5120 inb_S10000x256_S1024x256_5120_0 bitsLt_bf16_f32 shapeCasts_S1024x256_S1024x256 _ dot1024_plain p q))
      (Cert.Gcn.Chunks.chunk_entry (s := 1024) x0 x1 6144 (by norm_num) inb_S200x10000_S200x1024_0_6144 inb_S10000x256_S1024x256_6144_0 bitsLt_bf16_f32 shapeCasts_S1024x256_S1024x256 _ dot1024_plain p q))
      (Cert.Gcn.Chunks.chunk_entry (s := 1024) x0 x1 7168 (by norm_num) inb_S200x10000_S200x1024_0_7168 inb_S10000x256_S1024x256_7168_0 bitsLt_bf16_f32 shapeCasts_S1024x256_S1024x256 _ dot1024_plain p q))
      (Cert.Gcn.Chunks.chunk_entry (s := 1024) x0 x1 8192 (by norm_num) inb_S200x10000_S200x1024_0_8192 inb_S10000x256_S1024x256_8192_0 bitsLt_bf16_f32 shapeCasts_S1024x256_S1024x256 _ dot1024_plain p q))
      (Cert.Gcn.Chunks.chunk_entry (s := 784) x0 x1 9216 (by norm_num) inb_S200x10000_S200x784_0_9216 inb_S10000x256_S784x256_9216_0 bitsLt_bf16_f32 shapeCasts_S784x256_S784x256 _ dot784_plain p q))
  · refine (broadcastTo_1b_ab_apply (a := 200) (b := 256) _ broadcasts_S1x256_S200x256 p q).trans ?_
    refine (congrFun (shapeCast_self (s := S1x256) _ shapeCasts_S1x256_S1x256) _).trans ?_
    exact congrFun (View.ld_unit_zero (S := S1x256) hz2 inb_S1x256_S1x256_0_0 x2) _

end Cert.KernelIdeal.Net

end
-- ==== Proof.Blocks.lean ====
/-
  From blocks to arrays. Each launch walks fifty grid points; point `t` stages rows 200 t … 200 t + 199 of the
  adjacency matrix, the whole feature matrix and the bias row, and writes back rows 200 t … 200 t + 199 of the output.
  What it writes back is block `t` of ONE function of the arrays the launch finds — the specification's layer — and
  the fifty blocks tile the output array, so after the last point the array is that layer.
-/
import proofs.«134504_j53970559041618_2_alg».proof.Proof.Payload
import Idealize.ShloMosaic.Lib.Pipeline.Value

set_option maxRecDepth 16384

noncomputable section

open scoped BigOperators

namespace Cert.KernelIdeal.Net

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Launch 0 -/

/-- The printed index maps over the fifty grid points: the adjacency window and the output window sit at block row
    `t`, the feature matrix and the bias row never move. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt0 (t : Fin cfg0.N) : t.val < 50 := lt_of_lt_of_eq t.isLt N_0

/-- The layer this launch computes, of the arrays as the launch finds them. -/
def G0 (c : Dev nD) : FVec Ideal S10000x256 .f32 :=
  Cert.Gcn.layer (V c main_arg2) (V c main_v10) (fun q => (V c main_v11 : S1x256.Idx → EReal) (ix2 (0 : Fin 1) q))

/-- The adjacency block of point `t` at (p, k) is the adjacency matrix at (200 t + p, k). -/
theorem adjBlock0_apply (c : Dev nD) (t : Fin cfg0.N) (p : Fin 200) (k : Fin 10000) :
    iblk0 V c 0 t (ix2 p k)
      = (V c main_arg2 : S10000x10000.Idx → EReal) (ix2 (⟨t.val * 200 + p.val, by have := point_lt0 t; have := p.isLt; omega⟩ : Fin 10000) k) := by
  obtain ⟨e00, e01, -, -, -, -, -, -⟩ := idx_facts0 t
  show V c main_arg2 (((cfg0.win 0).blk t).view.emb (ix2 p k)) = _
  refine congrArg (V c main_arg2) ?_
  funext a; apply Fin.ext
  match a with
  | ⟨0, _⟩ => show win0_0.index t (0 : Fin 2) * 200 + 1 * p.val = t.val * 200 + p.val; rw [e00]; omega
  | ⟨1, _⟩ => show win0_0.index t (1 : Fin 2) * 10000 + 1 * k.val = k.val; rw [e01]; omega

/-- The feature matrix is resident: its one block is the whole matrix. -/
theorem featBlock0_apply (c : Dev nD) (t : Fin cfg0.N) (k : Fin 10000) (q : Fin 256) :
    iblk0 V c 1 t (ix2 k q) = (V c main_v10 : S10000x256.Idx → EReal) (ix2 k q) := by
  obtain ⟨-, -, e10, e11, -, -, -, -⟩ := idx_facts0 t
  show V c main_v10 (((cfg0.win 1).blk t).view.emb (ix2 k q)) = _
  refine congrArg (V c main_v10) ?_
  funext a; apply Fin.ext
  match a with
  | ⟨0, _⟩ => show win0_1.index t (0 : Fin 2) * 10000 + 1 * k.val = k.val; rw [e10]; omega
  | ⟨1, _⟩ => show win0_1.index t (1 : Fin 2) * 256 + 1 * q.val = q.val; rw [e11]; omega

/-- So is the bias row. -/
theorem biasBlock0_apply (c : Dev nD) (t : Fin cfg0.N) (q : Fin 256) :
    iblk0 V c 2 t (ix2 (0 : Fin 1) q) = (V c main_v11 : S1x256.Idx → EReal) (ix2 (0 : Fin 1) q) := by
  obtain ⟨-, -, -, -, e20, e21, -, -⟩ := idx_facts0 t
  show V c main_v11 (((cfg0.win 2).blk t).view.emb (ix2 (0 : Fin 1) q)) = _
  refine congrArg (V c main_v11) ?_
  funext a; apply Fin.ext
  match a with
  | ⟨0, _⟩ => show win0_2.index t (0 : Fin 2) * 1 + 1 * 0 = 0; rw [e20]
  | ⟨1, _⟩ => show win0_2.index t (1 : Fin 2) * 256 + 1 * q.val = q.val; rw [e21]; omega

/-- Entry (p, q) of the output block of point `t` is entry (200 t + p, q) of the output array. -/
theorem outBlock0_emb (t : Fin cfg0.N) (p : Fin 200) (q : Fin 256) :
    ((cfg0.win 3).blk t).view.emb (ix2 p q)
      = (ix2 (⟨t.val * 200 + p.val, by have := point_lt0 t; have := p.isLt; omega⟩ : Fin 10000) q : S10000x256.Idx) := by
  obtain ⟨-, -, -, -, -, -, e30, e31⟩ := idx_facts0 t
  funext a; apply Fin.ext
  match a with
  | ⟨0, _⟩ => show win0_3.index t (0 : Fin 2) * 200 + 1 * p.val = t.val * 200 + p.val; rw [e30]; omega
  | ⟨1, _⟩ => show win0_3.index t (1 : Fin 2) * 256 + 1 * q.val = q.val; rw [e31]; omega

/-- WHAT POINT `t` WRITES BACK is block `t` of the layer: rows 200 t … 200 t + 199 of the adjacency matrix against the
    whole feature matrix. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  funext j
  obtain ⟨p, q, rfl⟩ : ∃ (p : Fin 200) (q : Fin 256), j = ix2 p q := ⟨j 0, j 1, eq_ix2 j⟩
  refine (body0_entry (iblk0 V c 0 t) (iblk0 V c 1 t) (iblk0 V c 2 t) (ix2 p q) p q rfl).trans ?_
  show _ = G0 V c (((cfg0.win 3).blk t).view.emb (ix2 p q))
  rw [outBlock0_emb, biasBlock0_apply]
  unfold G0
  rw [Cert.Gcn.layer_ix2]
  unfold Cert.Gcn.layerAt
  refine congrArg Cert.Gcn.leaky (congrArg₂ (· + ·) (Finset.sum_congr rfl fun k _ => ?_) rfl)
  rw [adjBlock0_apply, featBlock0_apply]

/-- An index of the output array is in point `t`'s block iff each coordinate is in the block's range on its axis. -/
theorem mem_blk0 (t : Fin cfg0.N) (i : S10000x256.Idx) :
    i ∈ ((cfg0.win 3).blk t).view.set ↔ ∀ a : Fin 2, win0_3.index t a * S200x256.size a ≤ (i a).val ∧ (i a).val < win0_3.index t a * S200x256.size a + S200x256.size a := by
  show i ∈ ((View.whole main_v12).slice (win0_3.rect t)).set ↔ _
  rw [View.set_slice_whole, Rect.mem_set_unit]
  exact Iff.rfl

/-- Every row of the output array lies in the block of the point its row number divided by 200 names. -/
theorem cover0 (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ : ∃ t : Fin cfg0.N, t.val = (i 0).val / 200 :=
    ⟨⟨(i 0).val / 200, lt_of_lt_of_eq (by omega : (i 0).val / 200 < 50) N_0.symm⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 200 ≤ (i 0).val ∧ (i 0).val < win0_3.index t (0 : Fin 2) * 200 + 200; rw [e30, ht]; omega
  | ⟨1, _⟩ => show win0_3.index t (1 : Fin 2) * 256 ≤ (i 1).val ∧ (i 1).val < win0_3.index t (1 : Fin 2) * 256 + 256; rw [e31]; omega

/-- THE OUTPUT ARRAY after the launch's last point is the layer. -/
theorem final0 (c : Dev nD) : (dat0 V c).arrAt 3 cfg0.N = G0 V c :=
  (dat0 V c).arrAt_eq_of_cover 3 (G0 V c) (fun t _ => flushed0_eq V c t) cover0

/-! ## Launch 1 -/

/-- The printed index maps over the fifty grid points: the adjacency window and the output window sit at block row
    `t`, the feature matrix and the bias row never move. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt1 (t : Fin cfg1.N) : t.val < 50 := lt_of_lt_of_eq t.isLt N_1

/-- The layer this launch computes, of the arrays as the launch finds them. -/
def G1 (c : Dev nD) : FVec Ideal S10000x256 .f32 :=
  Cert.Gcn.layer (V c main_arg2) (V c main_v14) (fun q => (V c main_v15 : S1x256.Idx → EReal) (ix2 (0 : Fin 1) q))

/-- The adjacency block of point `t` at (p, k) is the adjacency matrix at (200 t + p, k). -/
theorem adjBlock1_apply (c : Dev nD) (t : Fin cfg1.N) (p : Fin 200) (k : Fin 10000) :
    iblk1 V c 0 t (ix2 p k)
      = (V c main_arg2 : S10000x10000.Idx → EReal) (ix2 (⟨t.val * 200 + p.val, by have := point_lt1 t; have := p.isLt; omega⟩ : Fin 10000) k) := by
  obtain ⟨e00, e01, -, -, -, -, -, -⟩ := idx_facts1 t
  show V c main_arg2 (((cfg1.win 0).blk t).view.emb (ix2 p k)) = _
  refine congrArg (V c main_arg2) ?_
  funext a; apply Fin.ext
  match a with
  | ⟨0, _⟩ => show win1_0.index t (0 : Fin 2) * 200 + 1 * p.val = t.val * 200 + p.val; rw [e00]; omega
  | ⟨1, _⟩ => show win1_0.index t (1 : Fin 2) * 10000 + 1 * k.val = k.val; rw [e01]; omega

/-- The feature matrix is resident: its one block is the whole matrix. -/
theorem featBlock1_apply (c : Dev nD) (t : Fin cfg1.N) (k : Fin 10000) (q : Fin 256) :
    iblk1 V c 1 t (ix2 k q) = (V c main_v14 : S10000x256.Idx → EReal) (ix2 k q) := by
  obtain ⟨-, -, e10, e11, -, -, -, -⟩ := idx_facts1 t
  show V c main_v14 (((cfg1.win 1).blk t).view.emb (ix2 k q)) = _
  refine congrArg (V c main_v14) ?_
  funext a; apply Fin.ext
  match a with
  | ⟨0, _⟩ => show win1_1.index t (0 : Fin 2) * 10000 + 1 * k.val = k.val; rw [e10]; omega
  | ⟨1, _⟩ => show win1_1.index t (1 : Fin 2) * 256 + 1 * q.val = q.val; rw [e11]; omega

/-- So is the bias row. -/
theorem biasBlock1_apply (c : Dev nD) (t : Fin cfg1.N) (q : Fin 256) :
    iblk1 V c 2 t (ix2 (0 : Fin 1) q) = (V c main_v15 : S1x256.Idx → EReal) (ix2 (0 : Fin 1) q) := by
  obtain ⟨-, -, -, -, e20, e21, -, -⟩ := idx_facts1 t
  show V c main_v15 (((cfg1.win 2).blk t).view.emb (ix2 (0 : Fin 1) q)) = _
  refine congrArg (V c main_v15) ?_
  funext a; apply Fin.ext
  match a with
  | ⟨0, _⟩ => show win1_2.index t (0 : Fin 2) * 1 + 1 * 0 = 0; rw [e20]
  | ⟨1, _⟩ => show win1_2.index t (1 : Fin 2) * 256 + 1 * q.val = q.val; rw [e21]; omega

/-- Entry (p, q) of the output block of point `t` is entry (200 t + p, q) of the output array. -/
theorem outBlock1_emb (t : Fin cfg1.N) (p : Fin 200) (q : Fin 256) :
    ((cfg1.win 3).blk t).view.emb (ix2 p q)
      = (ix2 (⟨t.val * 200 + p.val, by have := point_lt1 t; have := p.isLt; omega⟩ : Fin 10000) q : S10000x256.Idx) := by
  obtain ⟨-, -, -, -, -, -, e30, e31⟩ := idx_facts1 t
  funext a; apply Fin.ext
  match a with
  | ⟨0, _⟩ => show win1_3.index t (0 : Fin 2) * 200 + 1 * p.val = t.val * 200 + p.val; rw [e30]; omega
  | ⟨1, _⟩ => show win1_3.index t (1 : Fin 2) * 256 + 1 * q.val = q.val; rw [e31]; omega

/-- WHAT POINT `t` WRITES BACK is block `t` of the layer: rows 200 t … 200 t + 199 of the adjacency matrix against the
    whole feature matrix. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2]
  funext j
  obtain ⟨p, q, rfl⟩ : ∃ (p : Fin 200) (q : Fin 256), j = ix2 p q := ⟨j 0, j 1, eq_ix2 j⟩
  refine (body1_entry (iblk1 V c 0 t) (iblk1 V c 1 t) (iblk1 V c 2 t) (ix2 p q) p q rfl).trans ?_
  show _ = G1 V c (((cfg1.win 3).blk t).view.emb (ix2 p q))
  rw [outBlock1_emb, biasBlock1_apply]
  unfold G1
  rw [Cert.Gcn.layer_ix2]
  unfold Cert.Gcn.layerAt
  refine congrArg Cert.Gcn.leaky (congrArg₂ (· + ·) (Finset.sum_congr rfl fun k _ => ?_) rfl)
  rw [adjBlock1_apply, featBlock1_apply]

/-- An index of the output array is in point `t`'s block iff each coordinate is in the block's range on its axis. -/
theorem mem_blk1 (t : Fin cfg1.N) (i : S10000x256.Idx) :
    i ∈ ((cfg1.win 3).blk t).view.set ↔ ∀ a : Fin 2, win1_3.index t a * S200x256.size a ≤ (i a).val ∧ (i a).val < win1_3.index t a * S200x256.size a + S200x256.size a := by
  show i ∈ ((View.whole main_v16).slice (win1_3.rect t)).set ↔ _
  rw [View.set_slice_whole, Rect.mem_set_unit]
  exact Iff.rfl

/-- Every row of the output array lies in the block of the point its row number divided by 200 names. -/
theorem cover1 (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  obtain ⟨t, ht⟩ : ∃ t : Fin cfg1.N, t.val = (i 0).val / 200 :=
    ⟨⟨(i 0).val / 200, lt_of_lt_of_eq (by omega : (i 0).val / 200 < 50) N_1.symm⟩, rfl⟩
  obtain ⟨-, -, -, -, -, -, e30, e31⟩ := idx_facts1 t
  refine ⟨t, flush1_3 t, ?_⟩
  rw [mem_blk1]
  intro a
  match a with
  | ⟨0, _⟩ => show win1_3.index t (0 : Fin 2) * 200 ≤ (i 0).val ∧ (i 0).val < win1_3.index t (0 : Fin 2) * 200 + 200; rw [e30, ht]; omega
  | ⟨1, _⟩ => show win1_3.index t (1 : Fin 2) * 256 ≤ (i 1).val ∧ (i 1).val < win1_3.index t (1 : Fin 2) * 256 + 256; rw [e31]; omega

/-- THE OUTPUT ARRAY after the launch's last point is the layer. -/
theorem final1 (c : Dev nD) : (dat1 V c).arrAt 3 cfg1.N = G1 V c :=
  (dat1 V c).arrAt_eq_of_cover 3 (G1 V c) (fun t _ => flushed1_eq V c t) cover1

end Cert.KernelIdeal.Net

end
-- ==== Proof.KernelRun.lean ====
/-
  The idealized kernel program's run with its result array named. @main is four segments — the host operations
  before the first launch, the first launch, the three host operations between the launches, the second launch —
  and the buffer contents at each boundary are a fold from the launch memory. Every weakly fair execution ends with
  every unscoped buffer at the last boundary's contents; read at the result buffer, that is what the second
  launch's fifty write-backs leave in its output array, and at each argument the launch contents.
-/
import proofs.«134504_j53970559041618_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last boundary's contents at the result buffer: the second launch's output array after its last point. -/
theorem last_result (c : Dev nD) : W4 m ρ c (Proc.devRef .tc main_v16) = (dat1 (V3 m ρ) c).arrAt 3 cfg1.N :=
  W4_arr m ρ c 3

set_option backward.isDefEq.respectTransparency.types false in
/-- Every weakly fair execution of @main terminates, nothing faulting, with the result buffer at the second launch's
    output array after its last point and the argument arrays as launched. -/
theorem run_named : θ_run defs (onTc (τ := τ) (main (F := F))) ⟨m, fun _ => 0, ρ⟩ (fun r => ∀ c : Dev nD,
      r.2.mem ((c.tc : Thread nD τ).loc main_v16) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v16 (by decide))).trans (last_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Net

end
-- ==== Proof.KernelValue.lean ====
/-
  The idealized kernel program's result as the specification's function of its arguments. The host operations before
  the first launch leave the feature product (rounded to a narrower format: nothing, at the extended reals), the
  bias as a one-row matrix and the adjacency matrix untouched, so the first launch's output array is the first
  layer; the three host operations between the launches leave the product of that layer with the second weight
  matrix and the second bias as a row, so the second launch's output array is the second layer: the network.
-/
import proofs.«134504_j53970559041618_2_alg».proof.Proof.Blocks
import proofs.«134504_j53970559041618_2_alg».proof.Proof.KernelRun
import Idealize.ShloMosaic.Lib.StableHlo.Run
import Idealize.ShloMosaic.Lib.ValueLayout

set_option maxRecDepth 16384

noncomputable section

namespace Cert.KernelIdeal.Net

open Cert.KernelIdeal Cert.KernelIdeal.Gen Idealize.ShloMosaic Idealize.ShloMosaic.TcCoe Idealize.SL.Sem Idealize.ShloMosaic.ValueIdx
open Idealize.ShloMosaic.StableHlo (after)

/-! ## The two stretches of host operations, from any starting contents -/

section Host
variable (W : Valuation τ sig (Elt Ideal))

theorem host0_adj : after hostOps0 W (Proc.devRef .tc main_arg2) = W (Proc.devRef .tc main_arg2) := by after_results
theorem host0_w2 : after hostOps0 W (Proc.devRef .tc main_arg5) = W (Proc.devRef .tc main_arg5) := by after_results
theorem host0_b2 : after hostOps0 W (Proc.devRef .tc main_arg6) = W (Proc.devRef .tc main_arg6) := by after_results

/-- Before the first launch the feature operand holds the nodes' features times the first weight matrix. -/
theorem host0_feat : after hostOps0 W (Proc.devRef .tc main_v10)
    = truncf .bf16 (Host.dotGeneral (φ₂ := .f32) (DotDims.plain 10000 300 256) none
        (Cert.Gcn.feat (W (Proc.devRef .tc main_arg0)) (W (Proc.devRef .tc main_arg1))) (W (Proc.devRef .tc main_arg3))) bitsLt_bf16_f32 := by
  after_results
  rfl

/-- … and the bias operand the first bias as a one-row matrix. -/
theorem host0_bias : after hostOps0 W (Proc.devRef .tc main_v11)
    = shapeCast S1x256 (W (Proc.devRef .tc main_arg4)) shapeCasts_S256_S1x256 := by
  after_results
  rfl

theorem host1_adj : after hostOps1 W (Proc.devRef .tc main_arg2) = W (Proc.devRef .tc main_arg2) := by after_results

/-- Before the second launch the feature operand holds the first launch's output times the second weight matrix. -/
theorem host1_feat : after hostOps1 W (Proc.devRef .tc main_v14)
    = truncf .bf16 (Host.dotGeneral (F := Ideal) (φ₁ := .f32) (φ₂ := .f32) (DotDims.plain 10000 256 256) none
        (W (Proc.devRef .tc main_v12)) (W (Proc.devRef .tc main_arg5))) bitsLt_bf16_f32 := by
  after_results
  rfl

/-- … and the bias operand the second bias as a one-row matrix. -/
theorem host1_bias : after hostOps1 W (Proc.devRef .tc main_v15)
    = shapeCast S1x256 (W (Proc.devRef .tc main_arg6)) shapeCasts_S256_S1x256 := by
  after_results
  rfl

end Host

/-- Rounding to a narrower format is the identity on the extended reals. -/
theorem truncf_eq {s : Shape} (x : FVec Ideal s .f32) (h : FTy.bits .bf16 < FTy.bits .f32) :
    (truncf .bf16 x h : FVec Ideal s .bf16) = x := rfl

/-- A layer whose bias row is a vector cast to one row is the layer of the vector. -/
theorem layer_bias (adj : Cert.Gcn.SAdj.Idx → EReal) (S : Cert.Gcn.SHid.Idx → EReal) (b : S256.Idx → EReal) :
    Cert.Gcn.layer adj S (fun q => shapeCast S1x256 b shapeCasts_S256_S1x256 (ix2 (0 : Fin 1) q))
      = Cert.Gcn.layer adj S (fun q => b (ix1 q)) :=
  congrArg (Cert.Gcn.layer adj S) (funext fun q => shapeCast_a_1a_apply b shapeCasts_S256_S1x256 0 q)

variable (m : (ℓ : Loc nD τ sig) → Buf (Elt Ideal) ℓ) (ρ : Dev nD → PrngReg)

/-- The first launch's output array after its last point: the first layer of the arguments. -/
theorem first_layer (c : Dev nD) : (dat0 (V1 m ρ) c).arrAt 3 cfg0.N
    = Cert.Gcn.layer (m ((c.tc : Thread nD τ).loc main_arg2))
        (Host.dotGeneral (φ₂ := .f32) (DotDims.plain 10000 300 256) none (Cert.Gcn.feat (m ((c.tc : Thread nD τ).loc main_arg0)) (m ((c.tc : Thread nD τ).loc main_arg1))) (m ((c.tc : Thread nD τ).loc main_arg3)))
        (fun q => (m ((c.tc : Thread nD τ).loc main_arg4)) (ix1 q)) := by
  rw [final0]
  unfold G0
  have e0 : (V1 m ρ c main_arg2 : S10000x10000.Idx → EReal) = (m ((c.tc : Thread nD τ).loc main_arg2)) := host0_adj (W0 m ρ c)
  have e1 : (V1 m ρ c main_v10 : S10000x256.Idx → EReal)
      = truncf .bf16 (Host.dotGeneral (φ₂ := .f32) (DotDims.plain 10000 300 256) none (Cert.Gcn.feat (m ((c.tc : Thread nD τ).loc main_arg0)) (m ((c.tc : Thread nD τ).loc main_arg1))) (m ((c.tc : Thread nD τ).loc main_arg3))) bitsLt_bf16_f32 :=
    host0_feat (W0 m ρ c)
  have e2 : (V1 m ρ c main_v11 : S1x256.Idx → EReal) = shapeCast S1x256 (m ((c.tc : Thread nD τ).loc main_arg4)) shapeCasts_S256_S1x256 := host0_bias (W0 m ρ c)
  rw [e0, e1, e2, truncf_eq]
  exact layer_bias _ _ _

/-- The second launch's output array after its last point: the network of the arguments. -/
theorem second_layer (c : Dev nD) : (dat1 (V3 m ρ) c).arrAt 3 cfg1.N
    = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [final1]
  unfold G1 Cert.Gcn.out
  have a2 : (V3 m ρ c main_arg2 : S10000x10000.Idx → EReal) = (m ((c.tc : Thread nD τ).loc main_arg2)) :=
    (host1_adj (W2 m ρ c)).trans ((W2_arr m ρ c 0).trans (((dat0 (V1 m ρ) c).arrAt_in 0 rfl _).trans
      ((A_eq0 (V1 m ρ) c 0).trans (host0_adj (W0 m ρ c)))))
  have h12 : (W2 m ρ c (Proc.devRef .tc main_v12) : S10000x256.Idx → EReal) = _ := (W2_arr m ρ c 3).trans (first_layer m ρ c)
  have w5 : (W2 m ρ c (Proc.devRef .tc main_arg5) : S256x256.Idx → EReal) = (m ((c.tc : Thread nD τ).loc main_arg5)) :=
    (W2_of_ne m ρ c main_arg5 (by decide)).trans (host0_w2 (W0 m ρ c))
  have w6 : (W2 m ρ c (Proc.devRef .tc main_arg6) : S256.Idx → EReal) = (m ((c.tc : Thread nD τ).loc main_arg6)) :=
    (W2_of_ne m ρ c main_arg6 (by decide)).trans (host0_b2 (W0 m ρ c))
  have s2 : (V3 m ρ c main_v14 : S10000x256.Idx → EReal)
      = truncf .bf16 (Host.dotGeneral (F := Ideal) (φ₁ := .f32) (φ₂ := .f32) (DotDims.plain 10000 256 256) none
          (W2 m ρ c (Proc.devRef .tc main_v12)) (W2 m ρ c (Proc.devRef .tc main_arg5))) bitsLt_bf16_f32 := host1_feat (W2 m ρ c)
  have b2 : (V3 m ρ c main_v15 : S1x256.Idx → EReal) = shapeCast S1x256 (W2 m ρ c (Proc.devRef .tc main_arg6)) shapeCasts_S256_S1x256 :=
    host1_bias (W2 m ρ c)
  rw [a2, s2, b2, h12, w5, w6, truncf_eq]
  exact layer_bias _ _ _

/-- The idealized kernel program's run: every weakly fair execution ends with the result buffer at the
    specification's function of the arguments and the arguments as launched. -/
theorem run : θ_run defs (onTc (τ := τ) (main (F := Ideal))) ⟨m, fun _ => 0, ρ⟩ (fun r => ∀ c : Dev nD,
      r.2.mem ((c.tc : Thread nD τ).loc main_v16)
        = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (second_layer m ρ c), (h c).2⟩) (run_named m ρ)

end Cert.KernelIdeal.Net

end
-- ==== Proof.RefRun.lean ====
/-
  The reference program's run, read back. Its @main is a straight line of thirty-six host operations once the two
  calls of the leaky rectifier (and the select each of them calls) are written out at their call sites over the
  calls' own buffers; every weakly fair execution of it ends with the result buffer at the operations' composed
  term of the seven argument arrays, and with the arguments as they were. The composed term is named piece by
  piece: the nodes' features `refFeat`, the rectifier `refLeaky`, one layer `refLayer`, the network `refOut`.
-/
import proofs.«134504_j53970559041618_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two rectifier calls written out over their own buffers. -/
abbrev ops : List (HloOp τ sig (Elt F)) :=
  [ unary main_arg0 main_v0 ((extractStridedSlice S10000x8 ![1, 0] · slices_S10001x8_S10000x8_1_0) : (⟨S10001x8, .i32⟩ : BufTy).Contents (Elt F) → (⟨S10000x8, .i32⟩ : BufTy).Contents (Elt F)),
    nullary main_c (constantI S_ 32 0#32),
    unary main_c main_v1 (broadcastInDim S10000x8 ![] bcast_S_S10000x8 : (⟨S_, .i32⟩ : BufTy).Contents (Elt F) → (⟨S10000x8, .i32⟩ : BufTy).Contents (Elt F)),
    binary main_v0 main_v1 main_v2 (cmpi .slt : (⟨S10000x8, .i32⟩ : BufTy).Contents (Elt F) → (⟨S10000x8, .i32⟩ : BufTy).Contents (Elt F) → (⟨S10000x8, .i1⟩ : BufTy).Contents (Elt F)),
    nullary main_c_0 (constantI S_ 32 50000#32),
    unary main_c_0 main_v3 (broadcastInDim S10000x8 ![] bcast_S_S10000x8 : (⟨S_, .i32⟩ : BufTy).Contents (Elt F) → (⟨S10000x8, .i32⟩ : BufTy).Contents (Elt F)),
    binary main_v0 main_v3 main_v4 (addi : (⟨S10000x8, .i32⟩ : BufTy).Contents (Elt F) → (⟨S10000x8, .i32⟩ : BufTy).Contents (Elt F) → (⟨S10000x8, .i32⟩ : BufTy).Contents (Elt F)),
    ternary main_v2 main_v4 main_v0 main_v5 (select : (⟨S10000x8, .i1⟩ : BufTy).Contents (Elt F) → (⟨S10000x8, .i32⟩ : BufTy).Contents (Elt F) → (⟨S10000x8, .i32⟩ : BufTy).Contents (Elt F) → (⟨S10000x8, .i32⟩ : BufTy).Contents (Elt F)),
    unary main_v5 main_v6 (broadcastInDim S10000x8x1 ![0, 1] bcast_S10000x8_S10000x8x1_0_1 : (⟨S10000x8, .i32⟩ : BufTy).Contents (Elt F) → (⟨S10000x8x1, .i32⟩ : BufTy).Contents (Elt F)),
    binary main_arg1 main_v6 main_v7 ((fun x i => Host.gather gather_S50000x300_S10000x8x1_S10000x8x300_2_0_n_n_0_2_1300 x i) : (⟨S50000x300, .f32⟩ : BufTy).Contents (Elt F) → (⟨S10000x8x1, .i32⟩ : BufTy).Contents (Elt F) → (⟨S10000x8x300, .f32⟩ : BufTy).Contents (Elt F)),
    nullary main_cst (constant S_ .f32 0xFF800000#32),
    binary main_v7 main_cst main_v8 ((fun x v => Host.reduce FloatOps.maximumf x v reducesTo_S10000x8x300_S10000x300_d1 h_S_) : (⟨S10000x8x300, .f32⟩ : BufTy).Contents (Elt F) → (⟨S_, .f32⟩ : BufTy).Contents (Elt F) → (⟨S10000x300, .f32⟩ : BufTy).Contents (Elt F)),
    binary main_v8 main_arg3 main_v9 ((fun l r => Host.dotGeneral dot_S10000x300_S300x256_S10000x256_1_0_0_1_n_n none l r) : (⟨S10000x300, .f32⟩ : BufTy).Contents (Elt F) → (⟨S300x256, .f32⟩ : BufTy).Contents (Elt F) → (⟨S10000x256, .f32⟩ : BufTy).Contents (Elt F)),
    binary main_arg2 main_v9 main_v10 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg4 main_v11 (broadcastInDim S1x256 ![1] bcast_S256_S1x256_1 : (⟨S256, .f32⟩ : BufTy).Contents (Elt F) → (⟨S1x256, .f32⟩ : BufTy).Contents (Elt F)),
    unary main_v11 main_v12 (broadcastInDim S10000x256 ![0, 1] bcast_S1x256_S10000x256_0_1 : (⟨S1x256, .f32⟩ : BufTy).Contents (Elt F) → (⟨S10000x256, .f32⟩ : BufTy).Contents (Elt F)),
    binary main_v10 main_v12 main_v13 (addf : (⟨S10000x256, .f32⟩ : BufTy).Contents (Elt F) → (⟨S10000x256, .f32⟩ : BufTy).Contents (Elt F) → (⟨S10000x256, .f32⟩ : BufTy).Contents (Elt F)),
    nullary main_call0_cst (constant S_ .f32 0x00000000#32),
    unary main_call0_cst main_call0_v0 (broadcastInDim S10000x256 ![] bcast_S_S10000x256 : (⟨S_, .f32⟩ : BufTy).Contents (Elt F) → (⟨S10000x256, .f32⟩ : BufTy).Contents (Elt F)),
    binary main_v13 main_call0_v0 main_call0_v1 (cmpf .oge : (⟨S10000x256, .f32⟩ : BufTy).Contents (Elt F) → (⟨S10000x256, .f32⟩ : BufTy).Contents (Elt F) → (⟨S10000x256, .i1⟩ : BufTy).Contents (Elt F)),
    nullary main_call0_cst_0 (constant S_ .f32 0x3C23D70A#32),
    unary main_call0_cst_0 main_call0_v2 (broadcastInDim S10000x256 ![] bcast_S_S10000x256 : (⟨S_, .f32⟩ : BufTy).Contents (Elt F) → (⟨S10000x256, .f32⟩ : BufTy).Contents (Elt F)),
    binary main_call0_v2 main_v13 main_call0_v3 (mulf : (⟨S10000x256, .f32⟩ : BufTy).Contents (Elt F) → (⟨S10000x256, .f32⟩ : BufTy).Contents (Elt F) → (⟨S10000x256, .f32⟩ : BufTy).Contents (Elt F)),
    ternary main_call0_v1 main_v13 main_call0_v3 main_v14 (select : (⟨S10000x256, .i1⟩ : BufTy).Contents (Elt F) → (⟨S10000x256, .f32⟩ : BufTy).Contents (Elt F) → (⟨S10000x256, .f32⟩ : BufTy).Contents (Elt F) → (⟨S10000x256, .f32⟩ : BufTy).Contents (Elt F)),
    binary main_v14 main_arg5 main_v15 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg2 main_v15 main_v16 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg6 main_v17 (broadcastInDim S1x256 ![1] bcast_S256_S1x256_1 : (⟨S256, .f32⟩ : BufTy).Contents (Elt F) → (⟨S1x256, .f32⟩ : BufTy).Contents (Elt F)),
    unary main_v17 main_v18 (broadcastInDim S10000x256 ![0, 1] bcast_S1x256_S10000x256_0_1 : (⟨S1x256, .f32⟩ : BufTy).Contents (Elt F) → (⟨S10000x256, .f32⟩ : BufTy).Contents (Elt F)),
    binary main_v16 main_v18 main_v19 (addf : (⟨S10000x256, .f32⟩ : BufTy).Contents (Elt F) → (⟨S10000x256, .f32⟩ : BufTy).Contents (Elt F) → (⟨S10000x256, .f32⟩ : BufTy).Contents (Elt F)),
    nullary main_call1_cst (constant S_ .f32 0x00000000#32),
    unary main_call1_cst main_call1_v0 (broadcastInDim S10000x256 ![] bcast_S_S10000x256 : (⟨S_, .f32⟩ : BufTy).Contents (Elt F) → (⟨S10000x256, .f32⟩ : BufTy).Contents (Elt F)),
    binary main_v19 main_call1_v0 main_call1_v1 (cmpf .oge : (⟨S10000x256, .f32⟩ : BufTy).Contents (Elt F) → (⟨S10000x256, .f32⟩ : BufTy).Contents (Elt F) → (⟨S10000x256, .i1⟩ : BufTy).Contents (Elt F)),
    nullary main_call1_cst_0 (constant S_ .f32 0x3C23D70A#32),
    unary main_call1_cst_0 main_call1_v2 (broadcastInDim S10000x256 ![] bcast_S_S10000x256 : (⟨S_, .f32⟩ : BufTy).Contents (Elt F) → (⟨S10000x256, .f32⟩ : BufTy).Contents (Elt F)),
    binary main_call1_v2 main_v19 main_call1_v3 (mulf : (⟨S10000x256, .f32⟩ : BufTy).Contents (Elt F) → (⟨S10000x256, .f32⟩ : BufTy).Contents (Elt F) → (⟨S10000x256, .f32⟩ : BufTy).Contents (Elt F)),
    ternary main_call1_v1 main_v19 main_call1_v3 main_v20 (select : (⟨S10000x256, .i1⟩ : BufTy).Contents (Elt F) → (⟨S10000x256, .f32⟩ : BufTy).Contents (Elt F) → (⟨S10000x256, .f32⟩ : BufTy).Contents (Elt F) → (⟨S10000x256, .f32⟩ : BufTy).Contents (Elt F)) ]

-- thirty-six binds re-associated
set_option maxRecDepth 2048 in
/-- @main is that straight line: the functions' bodies unfolded at their calls, sequencing re-associated. -/
theorem main_eq (c : Dev nD) : main (F := F) c = seq ops := by
  simp only [main, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    binary_bufs_sub .., binary_bufs_sub .., unary_bufs_sub .., unary_bufs_sub .., binary_bufs_sub ..,
    nullary_bufs_sub .., unary_bufs_sub .., binary_bufs_sub .., nullary_bufs_sub .., unary_bufs_sub .., binary_bufs_sub .., ternary_bufs_sub ..,
    binary_bufs_sub .., binary_bufs_sub .., unary_bufs_sub .., unary_bufs_sub .., binary_bufs_sub ..,
    nullary_bufs_sub .., unary_bufs_sub .., binary_bufs_sub .., nullary_bufs_sub .., unary_bufs_sub .., binary_bufs_sub .., ternary_bufs_sub ..⟩

/-- The nodes' features as the reference computes them: the word table without its first row, negative indices
    counted from the end, the embedding rows gathered and their maximum taken over the eight words. -/
def refFeat (nodes : (⟨S10001x8, .i32⟩ : BufTy).Contents (Elt F)) (emb : (⟨S50000x300, .f32⟩ : BufTy).Contents (Elt F)) : (⟨S10000x300, .f32⟩ : BufTy).Contents (Elt F) :=
  Host.reduce FloatOps.maximumf
    (Host.gather gather_S50000x300_S10000x8x1_S10000x8x300_2_0_n_n_0_2_1300 emb
      (broadcastInDim S10000x8x1 ![0, 1] bcast_S10000x8_S10000x8x1_0_1
        (select (cmpi .slt (extractStridedSlice S10000x8 ![1, 0] nodes slices_S10001x8_S10000x8_1_0) (broadcastInDim S10000x8 ![] bcast_S_S10000x8 (constantI S_ 32 0#32)))
          (addi (extractStridedSlice S10000x8 ![1, 0] nodes slices_S10001x8_S10000x8_1_0) (broadcastInDim S10000x8 ![] bcast_S_S10000x8 (constantI S_ 32 50000#32)))
          (extractStridedSlice S10000x8 ![1, 0] nodes slices_S10001x8_S10000x8_1_0))))
    (constant S_ .f32 0xFF800000#32) reducesTo_S10000x8x300_S10000x300_d1 h_S_

/-- The leaky rectifier over a whole array, as the outlined function computes it. -/
def refLeaky (x : (⟨S10000x256, .f32⟩ : BufTy).Contents (Elt F)) : (⟨S10000x256, .f32⟩ : BufTy).Contents (Elt F) :=
  select (cmpf .oge x (broadcastInDim S10000x256 ![] bcast_S_S10000x256 (constant S_ .f32 0x00000000#32))) x
    (mulf (broadcastInDim S10000x256 ![] bcast_S_S10000x256 (constant S_ .f32 0x3C23D70A#32)) x)

/-- One layer: the rectifier of the adjacency matrix times the features plus the bias laid along every row. -/
def refLayer (adj : (⟨S10000x10000, .f32⟩ : BufTy).Contents (Elt F)) (S : (⟨S10000x256, .f32⟩ : BufTy).Contents (Elt F)) (b : (⟨S256, .f32⟩ : BufTy).Contents (Elt F)) : (⟨S10000x256, .f32⟩ : BufTy).Contents (Elt F) :=
  refLeaky (addf (Host.dotGeneral dot_S10000x10000_S10000x256_S10000x256_1_0_0_1_n_n none adj S)
    (broadcastInDim S10000x256 ![0, 1] bcast_S1x256_S10000x256_0_1 (broadcastInDim S1x256 ![1] bcast_S256_S1x256_1 b)))

/-- The network: two layers around the products with the weight matrices. -/
def refOut (nodes : (⟨S10001x8, .i32⟩ : BufTy).Contents (Elt F)) (emb : (⟨S50000x300, .f32⟩ : BufTy).Contents (Elt F)) (adj : (⟨S10000x10000, .f32⟩ : BufTy).Contents (Elt F))
    (W1 : (⟨S300x256, .f32⟩ : BufTy).Contents (Elt F)) (b1 : (⟨S256, .f32⟩ : BufTy).Contents (Elt F)) (W2 : (⟨S256x256, .f32⟩ : BufTy).Contents (Elt F)) (b2 : (⟨S256, .f32⟩ : BufTy).Contents (Elt F)) : (⟨S10000x256, .f32⟩ : BufTy).Contents (Elt F) :=
  refLayer adj (Host.dotGeneral dot_S10000x256_S256x256_S10000x256_1_0_0_1_n_n none
    (refLayer adj (Host.dotGeneral dot_S10000x300_S300x256_S10000x256_1_0_0_1_n_n none (refFeat nodes emb) W1) b1) W2) b2

set_option maxHeartbeats 1000000 in
/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v20).trans (by unfold refOut refLayer refLeaky refFeat; after_results_simp),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.RefValue

end
-- ==== Proof.RefValue.lean ====
/-
  The reference's composed term is the specification. Its features are the specification's by the same operations;
  its rectifier is the specification's entry by entry; one of its layers, read at entry (p, q), is the host product's
  inner product `∑ k, adj p k · S k q` plus the bias, which two broadcasts lay along every row, under the rectifier.
-/
import proofs.«134504_j53970559041618_2_alg».proof.Proof.RefRun
import proofs.«134504_j53970559041618_2_alg».proof.Proof.Spec
import Idealize.ShloMosaic.Lib.KernelVsHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The reference's features are the specification's: the same operations on the same arrays. -/
theorem refFeat_eq (nodes : IVec S10001x8 32) (emb : FVec Ideal S50000x300 .f32) :
    refFeat (F := Ideal) nodes emb = Cert.Gcn.feat nodes emb := rfl

/-- The outlined rectifier at an entry is the specification's rectifier of the entry. -/
theorem refLeaky_apply (x : FVec Ideal S10000x256 .f32) (i : S10000x256.Idx) :
    refLeaky (F := Ideal) x i = Cert.Gcn.leaky (x i) := rfl

/-- The three host products have the plain dimension numbers. -/
theorem dotAdj_plain : dot_S10000x10000_S10000x256_S10000x256_1_0_0_1_n_n = DotDims.plain 10000 10000 256 := rfl
theorem dotW1_plain : dot_S10000x300_S300x256_S10000x256_1_0_0_1_n_n = DotDims.plain 10000 300 256 := rfl
theorem dotW2_plain : dot_S10000x256_S256x256_S10000x256_1_0_0_1_n_n = DotDims.plain 10000 256 256 := rfl

/-- A bias vector broadcast to one row and then down every row, read at (p, q), is the bias at `q`. -/
theorem bias_apply (b : FVec Ideal S256 .f32) (p : Fin 10000) (q : Fin 256) :
    broadcastInDim S10000x256 ![0, 1] bcast_S1x256_S10000x256_0_1 (broadcastInDim S1x256 ![1] bcast_S256_S1x256_1 b) (ix2 p q)
      = b (ix1 q) := by
  rw [broadcastInDim_oneRow_apply]
  refine broadcastInDim_apply ![1] bcast_S256_S1x256_1 b (ix2 (0 : Fin 1) q) (ix1 q) ?_
  intro a
  match a with
  | ⟨0, _⟩ =>
    show q.val = if (256 : ℕ) = 1 then 0 else q.val
    rw [if_neg (by norm_num)]

/-- One reference layer is the specification's layer. -/
theorem refLayer_eq (adj : FVec Ideal S10000x10000 .f32) (S : FVec Ideal S10000x256 .f32) (b : FVec Ideal S256 .f32) :
    refLayer (F := Ideal) adj S b = Cert.Gcn.layer adj S (fun q => b (ix1 q)) := by
  funext i
  obtain ⟨p, q, rfl⟩ : ∃ (p : Fin 10000) (q : Fin 256), i = ix2 p q := ⟨i 0, i 1, eq_ix2 i⟩
  rw [Cert.Gcn.layer_ix2]
  unfold refLayer Cert.Gcn.layerAt
  rw [refLeaky_apply]
  refine congrArg Cert.Gcn.leaky ?_
  rw [addf_apply, bias_apply, dotAdj_plain, StackMember.dotGeneral_plain_apply]

/-- The reference's result is the specification's function of the arguments. -/
theorem refOut_eq (nodes : IVec S10001x8 32) (emb : FVec Ideal S50000x300 .f32) (adj : FVec Ideal S10000x10000 .f32)
    (W1 : FVec Ideal S300x256 .f32) (b1 : FVec Ideal S256 .f32) (W2 : FVec Ideal S256x256 .f32) (b2 : FVec Ideal S256 .f32) :
    refOut (F := Ideal) nodes emb adj W1 b1 W2 b2 = Cert.Gcn.out nodes emb adj W1 b1 W2 b2 := by
  unfold refOut Cert.Gcn.out
  rw [refLayer_eq, refLayer_eq, refFeat_eq, dotW1_plain, dotW2_plain]

end Cert.ReferenceIdeal.RefValue

end
-- ==== Proof.lean ====
/-
  A two-layer graph convolution over ten thousand nodes. Each node's feature row is the entrywise maximum of the
  embedding rows of the eight words of its name; a layer sends a feature matrix `S` to `leaky (adj · S + b)`, entry
  (p, q) being the leaky rectifier of `∑ k, adj p k · S k q + b q` over ALL nodes `k`; the network is two layers around
  the plain products with the two weight matrices (Proof/Spec.lean states it once, over no program).

  The kernel program computes each layer in a launch of fifty grid points: point `t` takes rows 200 t … 200 t + 199 of
  the adjacency matrix, cuts their ten thousand columns into ten slabs, rounds each slab to a narrower float format,
  multiplies it with the matching rows of the resident feature matrix, adds the ten products up from zero, adds the
  bias row and rectifies. The reference computes each layer as one host product, a broadcast bias and an outlined
  rectifier. At the extended reals a change of float format is the identity and a sum may be cut and regrouped at
  will (addition is a commutative monoid; no finiteness is used, so the precondition is never opened): both programs
  end at the specification's function of the seven arguments, entry by entry.

  * the kernel side: Proof/Chunks.lean (ten slab sums are the one sum; a slab read at an entry), Proof/Payload.lean
    (a body's store at an entry), Proof/Blocks.lean (fifty written-back blocks tile the output array, which is the
    layer), Proof/KernelRun.lean (the run with the result array named), Proof/KernelValue.lean (the host operations
    around the launches; the result as the specification);
  * the reference side: Proof/RefRun.lean (its run read back, the rectifier calls written out), Proof/RefValue.lean
    (its composed term is the specification);
  * here: the three frames (each program's run with the arguments kept), the idealization (nothing was rewritten), and
    the two runs set side by side from memories that agree on the arguments.
-/
import proofs.«134504_j53970559041618_2_alg».proof.Defs
import proofs.«134504_j53970559041618_2_alg».proof.Proof.Gen.Kernel
import proofs.«134504_j53970559041618_2_alg».proof.Proof.Gen.Kernel.Skeleton
import proofs.«134504_j53970559041618_2_alg».proof.Proof.Gen.Kernel.Launch
import proofs.«134504_j53970559041618_2_alg».proof.Proof.Gen.Kernel.Points
import proofs.«134504_j53970559041618_2_alg».proof.Proof.Gen.Kernel.Frame
import proofs.«134504_j53970559041618_2_alg».proof.Proof.Gen.KernelIdeal
import proofs.«134504_j53970559041618_2_alg».proof.Proof.Gen.KernelIdeal.Skeleton
import proofs.«134504_j53970559041618_2_alg».proof.Proof.Gen.KernelIdeal.Launch
import proofs.«134504_j53970559041618_2_alg».proof.Proof.Gen.KernelIdeal.Points
import proofs.«134504_j53970559041618_2_alg».proof.Proof.Gen.KernelIdeal.Frame
import proofs.«134504_j53970559041618_2_alg».proof.Proof.Gen.ReferenceIdeal
import proofs.«134504_j53970559041618_2_alg».proof.Proof.Gen.Pre_finite_inputs
import proofs.«134504_j53970559041618_2_alg».proof.Proof.KernelValue
import proofs.«134504_j53970559041618_2_alg».proof.Proof.RefValue
import Idealize.ShloMosaic.Adequacy
import Idealize.ShloMosaic.Init

noncomputable section

namespace Cert.Proof

open Idealize.ShloMosaic Idealize.SL.Sem

/-- The word-level kernel program runs and keeps its arguments: its two launches are class-A pipelines. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- From memories that agree on the seven arguments both idealized programs end at the specification's network of
    those arguments: the kernel's two launches each leave a layer in their output arrays, the reference's composed
    term is the same two layers. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Net.run m ρ, ?_⟩
  refine (θ_run Cert.ReferenceIdeal.defs _ _).mono (fun _ h c => ⟨(h c).1.trans ?_, (h c).2⟩) (Cert.ReferenceIdeal.RefValue.run (F := Ideal) m' ρ')
  obtain ⟨h0, h1, h2, h3, h4, h5, h6⟩ := hagree c
  rw [Cert.ReferenceIdeal.RefValue.refOut_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
